-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x180736 : Shape := ⟨2, ![512, 180736]⟩
abbrev S180736x10 : Shape := ⟨2, ![180736, 10]⟩
abbrev S180736 : Shape := ⟨1, ![180736]⟩
abbrev S_ : Shape := ⟨0, ![]⟩

class Facts : Prop where
  bcast_S_S512x180736 : S_.BroadcastsInDim S512x180736 (![] : Fin 0 → Fin S512x180736.rank)
  reducesTo_S512x180736_S_d0_1 : S512x180736.ReducesTo [0, 1] S_
  h_S_ : 0 < S_.numel
  bcast_S_S180736x10 : S_.BroadcastsInDim S180736x10 (![] : Fin 0 → Fin S180736x10.rank)
  reducesTo_S180736x10_S_d0_1 : S180736x10.ReducesTo [0, 1] S_
  bcast_S_S180736 : S_.BroadcastsInDim S180736 (![] : Fin 0 → Fin S180736.rank)
  reducesTo_S180736_S_d0 : S180736.ReducesTo [0] S_

variable [Facts]

def fn_part1 {F : FTy → Type} [FloatOps F] (main_v13 : IVec S_ 1) (main_v16 : IVec S180736 1) : IVec S_ 1 :=
  let main_c_5 : IVec S_ 1 := constantI S_ 1 1#1
  let main_v17 : IVec S_ 1 := (fun x v => Host.reduce IntOp.andi x v reducesTo_S180736_S_d0 h_S_) main_v16 main_c_5
  let main_v18 : IVec S_ 1 := andi main_v13 main_v17
  main_v18

def fn {F : FTy → Type} [FloatOps F] (main_arg0 : FVec F S512x180736 .f32) (main_arg1 : FVec F S180736x10 .f32) (main_arg2 : FVec F S180736 .f32) (main_arg3 : FVec F S180736 .f32) : IVec S_ 1 :=
  let main_v0 : FVec F S512x180736 .f32 := Host.absf main_arg0
  let main_cst : FVec F S_ .f32 := constant S_ .f32 0x7F800000#32
  let main_v1 : FVec F S512x180736 .f32 := broadcastInDim S512x180736 ![] bcast_S_S512x180736 main_cst
  let main_v2 : IVec S512x180736 1 := cmpf .olt main_v0 main_v1
  let main_c : IVec S_ 1 := constantI S_ 1 1#1
  let main_v3 : IVec S_ 1 := (fun x v => Host.reduce IntOp.andi x v reducesTo_S512x180736_S_d0_1 h_S_) main_v2 main_c
  let main_v4 : FVec F S180736x10 .f32 := Host.absf main_arg1
  let main_cst_0 : FVec F S_ .f32 := constant S_ .f32 0x7F800000#32
  let main_v5 : FVec F S180736x10 .f32 := broadcastInDim S180736x10 ![] bcast_S_S180736x10 main_cst_0
  let main_v6 : IVec S180736x10 1 := cmpf .olt main_v4 main_v5
  let main_c_1 : IVec S_ 1 := constantI S_ 1 1#1
  let main_v7 : IVec S_ 1 := (fun x v => Host.reduce IntOp.andi x v reducesTo_S180736x10_S_d0_1 h_S_) main_v6 main_c_1
  let main_v8 : IVec S_ 1 := andi main_v3 main_v7
  let main_v9 : FVec F S180736 .f32 := Host.absf main_arg2
  let main_cst_2 : FVec F S_ .f32 := constant S_ .f32 0x7F800000#32
  let main_v10 : FVec F S180736 .f32 := broadcastInDim S180736 ![] bcast_S_S180736 main_cst_2
  let main_v11 : IVec S180736 1 := cmpf .olt main_v9 main_v10
  let main_c_3 : IVec S_ 1 := constantI S_ 1 1#1
  let main_v12 : IVec S_ 1 := (fun x v => Host.reduce IntOp.andi x v reducesTo_S180736_S_d0 h_S_) main_v11 main_c_3
  let main_v13 : IVec S_ 1 := andi main_v8 main_v12
  let main_v14 : FVec F S180736 .f32 := Host.absf main_arg3
  let main_cst_4 : FVec F S_ .f32 := constant S_ .f32 0x7F800000#32
  let main_v15 : FVec F S180736 .f32 := broadcastInDim S180736 ![] bcast_S_S180736 main_cst_4
  let main_v16 : IVec S180736 1 := cmpf .olt main_v14 main_v15
  fn_part1 (F := F) main_v13 main_v16
-- ==== Kernel.lean ====
abbrev S512x180736 : Shape := ⟨2, ![512, 180736]⟩
abbrev S180736x10 : Shape := ⟨2, ![180736, 10]⟩
abbrev S180736 : Shape := ⟨1, ![180736]⟩
abbrev S10x180736 : Shape := ⟨2, ![10, 180736]⟩
abbrev S_ : Shape := ⟨0, ![]⟩
abbrev S10x184320 : Shape := ⟨2, ![10, 184320]⟩
abbrev S184320 : Shape := ⟨1, ![184320]⟩
abbrev S1x184320 : Shape := ⟨2, ![1, 184320]⟩
abbrev S512x10 : Shape := ⟨2, ![512, 10]⟩
abbrev S512 : Shape := ⟨1, ![512]⟩
abbrev S256x4096 : Shape := ⟨2, ![256, 4096]⟩
abbrev S10x4096 : Shape := ⟨2, ![10, 4096]⟩
abbrev S1x4096 : Shape := ⟨2, ![1, 4096]⟩
abbrev S256x10 : Shape := ⟨2, ![256, 10]⟩
abbrev S256 : Shape := ⟨1, ![256]⟩
abbrev S256x1 : Shape := ⟨2, ![256, 1]⟩

abbrev nBuf : Space → Nat
  | .hbm => 18
  | .vmem => 14
  | .smem => 0
  | _ => 0

abbrev bufTy : (tb : Table) → Fin (tcTables nBuf tb) → BufTy
  | .hbm, ⟨0, _⟩ => ⟨S512x180736, .f32⟩
  | .hbm, ⟨1, _⟩ => ⟨S180736x10, .f32⟩
  | .hbm, ⟨2, _⟩ => ⟨S180736, .f32⟩
  | .hbm, ⟨3, _⟩ => ⟨S180736, .f32⟩
  | .hbm, ⟨4, _⟩ => ⟨S10x180736, .f32⟩
  | .hbm, ⟨5, _⟩ => ⟨S_, .i32⟩
  | .hbm, ⟨6, _⟩ => ⟨S_, .f32⟩
  | .hbm, ⟨7, _⟩ => ⟨S10x184320, .f32⟩
  | .hbm, ⟨8, _⟩ => ⟨S_, .f32⟩
  | .hbm, ⟨9, _⟩ => ⟨S_, .f32⟩
  | .hbm, ⟨10, _⟩ => ⟨S184320, .f32⟩
  | .hbm, ⟨11, _⟩ => ⟨S_, .f32⟩
  | .hbm, ⟨12, _⟩ => ⟨S_, .f32⟩
  | .hbm, ⟨13, _⟩ => ⟨S184320, .f32⟩
  | .hbm, ⟨14, _⟩ => ⟨S1x184320, .f32⟩
  | .hbm, ⟨15, _⟩ => ⟨S1x184320, .f32⟩
  | .hbm, ⟨16, _⟩ => ⟨S512x10, .f32⟩
  | .hbm, ⟨17, _⟩ => ⟨S512, .f32⟩
  | .local _ .vmem, ⟨0, _⟩ => ⟨S256x4096, .f32⟩
  | .local _ .vmem, ⟨1, _⟩ => ⟨S256x4096, .f32⟩
  | .local _ .vmem, ⟨2, _⟩ => ⟨S10x4096, .f32⟩
  | .local _ .vmem, ⟨3, _⟩ => ⟨S10x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S256x10, .f32⟩
  | .local _ .vmem, ⟨9, _⟩ => ⟨S256x10, .f32⟩
  | .local _ .vmem, ⟨10, _⟩ => ⟨S256, .f32⟩
  | .local _ .vmem, ⟨11, _⟩ => ⟨S256, .f32⟩
  | .local _ .vmem, ⟨12, _⟩ => ⟨S256x10, .f32⟩
  | .local _ .vmem, ⟨13, _⟩ => ⟨S256x1, .f32⟩
  | _, _ => ⟨S512x180736, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_call1_v0 : Ref sig .tc := ⟨.hbm, 9, rfl⟩
abbrev main_v2 : Ref sig .tc := ⟨.hbm, 10, rfl⟩
abbrev main_cst_0 : Ref sig .tc := ⟨.hbm, 11, rfl⟩
abbrev main_call2_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 45], ![false, false]⟩

def k0_cond2 (i : grid0.Coords) : BitVec 1 :=
  let arg1 : BitVec 32 := BitVec.ofNat 32 (i 1).val
  let c44_i32 : BitVec 32 := 44#32
  let v42 : BitVec 1 := Scalar.cmpi .eq arg1 c44_i32
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S180736x10_S10x180736_1_0 : S180736x10.Transposes [1, 0] S10x180736
  pads_S10x180736_S10x184320_000_035840 : S10x180736.Pads (![0, 0] : Fin 2 → Nat) ![0, 3584] ![0, 0] S10x184320
  h_S_ : 0 < S_.numel
  pads_S180736_S184320_035840 : S180736.Pads (![0] : Fin 1 → Nat) ![3584] ![0] S184320
  shapeCasts_S184320_S1x184320 : S184320.ShapeCasts S1x184320
  inb_S256x10_S256x10_0_0 : ∀ a, (![0, 0] : Fin 2 → Nat) a + S256x10.size a ≤ S256x10.size a
  h_S256x10 : 0 < S256x10.numel
  shapeCasts_S256x10_S256x10 : S256x10.ShapeCasts S256x10
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x4096_d1_w32 : S256x4096.Iotas .tc 32 [1]
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S10x4096_S10x4096_0_0 : ∀ a, (![0, 0] : Fin 2 → Nat) a + S10x4096.size a ≤ S10x4096.size a
  h_S10x4096 : 0 < S10x4096.numel
  shapeCasts_S10x4096_S10x4096 : S10x4096.ShapeCasts S10x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  natLt_1_32 : 1 < 32
  reduces_S256x4096_S256 : S256x4096.Reduces [1] S256
  shapeCasts_S256_S256x1 : S256.ShapeCasts S256x1
  shapeCasts_S256x1_S256 : S256x1.ShapeCasts S256
  inb_S256_S256_0 : ∀ a, (![0] : Fin 1 → Nat) a + S256.size a ≤ S256.size a
  h_S256 : 0 < S256.numel
  dot_S256x4096_S10x4096_S256x10_1_1_0_0_n_n_wf : DotDims.WF S256x4096 S10x4096 S256x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S256x4096.size a < S512x180736.size a
  hwx0_0 : ∀ i : grid0.Coords, EltTy.bits .f32 = 32 ∨ (Rect.unit (s := S512x180736) (fun a => cc0_transform_0 i a * S256x4096.size a) (fun a => (Pipeline.Clip.of (cc0_transform_0 i a) (S256x4096.size a) (S512x180736.size a)).extent (S256x4096.size a)) fun a => Pipeline.Clip.inb (Pipeline.Clip.ok_of (hstart0_0 i a))).WholeWords (EltTy.packing .f32)
  hwxs0_0 : ∀ i : grid0.Coords, EltTy.bits .f32 = 32 ∨ (Rect.unit (s := S256x4096) (fun _ => 0) (fun a => (Pipeline.Clip.of (cc0_transform_0 i a) (S256x4096.size a) (S512x180736.size a)).extent (S256x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10x4096.size a ≤ S10x184320.size a
  hwx0_1 : ∀ i : grid0.Coords, EltTy.bits .f32 = 32 ∨ (Rect.block (s := S10x184320) S10x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x184320.size a
  hwx0_2 : ∀ i : grid0.Coords, EltTy.bits .f32 = 32 ∨ (Rect.block (s := S1x184320) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x184320.size a
  hwx0_3 : ∀ i : grid0.Coords, EltTy.bits .f32 = 32 ∨ (Rect.block (s := S1x184320) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x10.size a ≤ S512x10.size a
  hwx0_4 : ∀ i : grid0.Coords, EltTy.bits .f32 = 32 ∨ (Rect.block (s := S512x10) S256x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S512.size a
  hwx0_5 : ∀ i : grid0.Coords, EltTy.bits .f32 = 32 ∨ (Rect.block (s := S512) S256.size (cc0_transform_5 i) (hinb0_5 i)).WholeWords (EltTy.packing .f32)

variable [Facts₀]

def dot_S256x4096_S10x4096_S256x10_1_1_0_0_n_n : DotDims S256x4096 S10x4096 S256x10 where
  lhsContracting := [1]
  rhsContracting := [1]
  lhsNonContracting := [0]
  rhsNonContracting := [0]
  lhsBatch := []
  rhsBatch := []
  wf := dot_S256x4096_S10x4096_S256x10_1_1_0_0_n_n_wf

abbrev win0_0 : Pipeline.Window sig grid0 :=
  Pipeline.Window.ofSpecClip (Memref.whole main_arg0) S256x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S10x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S256x10.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S512x180736 : Shape := ⟨2, ![512, 180736]⟩
abbrev S180736x10 : Shape := ⟨2, ![180736, 10]⟩
abbrev S180736 : Shape := ⟨1, ![180736]⟩
abbrev S512x10 : Shape := ⟨2, ![512, 10]⟩
abbrev S1x180736 : Shape := ⟨2, ![1, 180736]⟩
abbrev S_ : Shape := ⟨0, ![]⟩
abbrev S512 : Shape := ⟨1, ![512]⟩

abbrev nBuf : Space → Nat
  | .hbm => 24
  | .vmem => 0
  | .smem => 0
  | _ => 0

abbrev bufTy : (tb : Table) → Fin (tcTables nBuf tb) → BufTy
  | .hbm, ⟨0, _⟩ => ⟨S512x180736, .f32⟩
  | .hbm, ⟨1, _⟩ => ⟨S180736x10, .f32⟩
  | .hbm, ⟨2, _⟩ => ⟨S180736, .f32⟩
  | .hbm, ⟨3, _⟩ => ⟨S180736, .f32⟩
  | .hbm, ⟨4, _⟩ => ⟨S512x10, .f32⟩
  | .hbm, ⟨5, _⟩ => ⟨S1x180736, .f32⟩
  | .hbm, ⟨6, _⟩ => ⟨S512x180736, .f32⟩
  | .hbm, ⟨7, _⟩ => ⟨S512x180736, .i1⟩
  | .hbm, ⟨8, _⟩ => ⟨S512x180736, .f32⟩
  | .hbm, ⟨9, _⟩ => ⟨S_, .f32⟩
  | .hbm, ⟨10, _⟩ => ⟨S512, .f32⟩
  | .hbm, ⟨11, _⟩ => ⟨S1x180736, .f32⟩
  | .hbm, ⟨12, _⟩ => ⟨S512x180736, .f32⟩
  | .hbm, ⟨13, _⟩ => ⟨S512x180736, .i1⟩
  | .hbm, ⟨14, _⟩ => ⟨S512x180736, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S512, .f32⟩
  | _, _ => ⟨S512x180736, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S180736_S1x180736_1 : S180736.BroadcastsInDim S1x180736 (![1] : Fin 1 → Fin S1x180736.rank)
  bcast_S1x180736_S512x180736_0_1 : S1x180736.BroadcastsInDim S512x180736 (![0, 1] : Fin 2 → Fin S512x180736.rank)
  reducesTo_S512x180736_S512_d1 : S512x180736.ReducesTo [1] S512
  h_S_ : 0 < S_.numel
  bcast_S_S512 : S_.BroadcastsInDim S512 (![] : Fin 0 → Fin S512.rank)
  dot_S512x180736_S180736x10_S512x10_1_0_0_1_n_n_wf : DotDims.WF S512x180736 S180736x10 S512x10 [1] [0] [0] [1] [] []

variable [Facts₀]

def dot_S512x180736_S180736x10_S512x10_1_0_0_1_n_n : DotDims S512x180736 S180736x10 S512x10 where
  lhsContracting := [1]
  rhsContracting := [0]
  lhsNonContracting := [0]
  rhsNonContracting := [1]
  lhsBatch := []
  rhsBatch := []
  wf := dot_S512x180736_S180736x10_S512x10_1_0_0_1_n_n_wf

class Facts : Prop extends Facts₀ where

variable [Facts]
-- ==== Proof.BodyBits.lean ====
import proofs.«128604_j23742579212333_2_alg».proof.Proof.Gen.Kernel.Frame
import proofs.«128604_j23742579212333_2_alg».proof.Proof.Gen.Kernel.Skeleton
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's two branches

The body zeroes its two accumulators at the first tile of a row block (grid coordinate 1 equal to 0) and writes the
two results at the last (coordinate 1 equal to 44); between, it only accumulates. -/

/-- The first-tile condition, as the body computes it from the grid coordinates. -/
abbrev condFirst (i : grid0.Coords) : Prop := (Scalar.cmpi .ne (Scalar.extui (Scalar.cmpi .eq (BitVec.ofNat 32 (i 1).val) 0#32)) 0#32) = 1#1
/-- The last-tile condition. -/
abbrev condLast (i : grid0.Coords) : Prop := k0_cond2 i = 1#1

/-- The offsets of a whole-buffer access of rank 2, and of rank 1, are all zero. -/
theorem hz2 : (![0, 0] : Fin 2 → Nat) = fun _ => 0 := funext fun a => by fin_cases a <;> rfl
theorem hz1 : (![0] : Fin 1 → Nat) = fun _ => 0 := funext fun a => by fin_cases a; rfl

/-- A buffer whose LAST write went through the whole-buffer rectangle reads as that write's payload, whatever was
    written before and whatever the buffer held. -/
theorem read_writes_top {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-- The score accumulator after one tile: what it held (`s`) plus the tile's masked activations times the tile of
    the transposed weights. -/
abbrev accStep (i : grid0.Coords) (X0 : Vec F S256x4096 .f32) (X1 : Vec F S10x4096 .f32) (s : Vec F S256x10 .f32) : Vec F S256x10 .f32 :=
  k0_pay6 i X0 X1 s
/-- The outlier counter after one tile: what it held plus the tile's row-wise count of activations above the upper
    threshold or below the lower one. -/
abbrev cntStep (i : grid0.Coords) (X0 : Vec F S256x4096 .f32) (X2 X3 : Vec F S1x4096 .f32) (s : Vec F S256x1 .f32) : Vec F S256x1 .f32 :=
  k0_pay1 s (k0_pay7 i X0 X2 X3)

set_option maxHeartbeats 1600000 in
/-- A middle tile: neither branch is taken. The four input buffers are read and left as they were; the two
    accumulators, found at `S0` and `S1`, are left one step further. The two result buffers are not touched. -/
theorem runMid (c : Dev nD) (i : grid0.Coords)
    (a2 : Memref sig .tc .vmem S256x4096 .f32) (h2 : a2.IsWhole) (a3 : Memref sig .tc .vmem S10x4096 .f32) (h3 : a3.IsWhole)
    (a4 : Memref sig .tc .vmem S1x4096 .f32) (h4 : a4.IsWhole) (a5 : Memref sig .tc .vmem S1x4096 .f32) (h5 : a5.IsWhole)
    (a6 : Memref sig .tc .vmem S256x10 .f32) (h6 : a6.IsWhole) (a7 : Memref sig .tc .vmem S256 .f32) (h7 : a7.IsWhole)
    (a8 : Memref sig .tc .vmem S256x10 .f32) (h8 : a8.IsWhole) (a9 : Memref sig .tc .vmem S256x1 .f32) (h9 : a9.IsWhole)
    (hc0 : ¬condFirst i) (hc1 : ¬condLast i)
    (X0 : Vec F S256x4096 .f32) (X1 : Vec F S10x4096 .f32) (X2 X3 : Vec F S1x4096 .f32)
    (S0 : Vec F S256x10 .f32) (S1 : Vec F S256x1 .f32) (E : Set ℕ) (K : PUnit → sProp 𝕄) :
    iprop(owns (c : Thread nD τ) a2 fullShare X0 ∗ owns (c : Thread nD τ) a3 fullShare X1 ∗ owns (c : Thread nD τ) a4 fullShare X2
        ∗ owns (c : Thread nD τ) a5 fullShare X3 ∗ owns (c : Thread nD τ) a8 fullShare S0 ∗ owns (c : Thread nD τ) a9 fullShare S1
        ∗ (iprop(owns (c : Thread nD τ) a2 fullShare X0 ∗ owns (c : Thread nD τ) a3 fullShare X1 ∗ owns (c : Thread nD τ) a4 fullShare X2
            ∗ owns (c : Thread nD τ) a5 fullShare X3 ∗ owns (c : Thread nD τ) a8 fullShare (accStep i X0 X1 S0)
            ∗ owns (c : Thread nD τ) a9 fullShare (cntStep i X0 X2 X3 S1)) -∗ K ⟨⟩))
      ⊢ wp frame (wpE (defs₀ (F := F)) Variants.none c none) E (cc0__fnrd_kernel i a2 h2 a3 h3 a4 h4 a5 h5 a6 h6 a7 h7 a8 h8 a9 h9) K := by
  simp only [cc0__fnrd_kernel_eq_skeleton]; unfold cc0__fnrd_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f8, %hf8, H8⟩, ⟨%f9, %hf9, H9⟩, Hk⟩
  obtain rfl := h2.eq_unread hf0; obtain rfl := h3.eq_unread hf1; obtain rfl := h4.eq_unread hf2; obtain rfl := h5.eq_unread hf3
  obtain rfl := h8.eq_unread hf8; obtain rfl := h9.eq_unread hf9
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H8]
  · iexists _; isplitr
    swap; · iexact H8
    ipureintro
    sl_unfold_run_names
    rw [read_writes_top _ _ hz2]
    simp only [View.readAt_eq_ld, h2.read_unread, h3.read_unread, h4.read_unread, h5.read_unread, h8.read_unread, h9.read_unread,
      View.ld_unit_zero (S := S256x4096) hz2, View.ld_unit_zero (S := S10x4096) hz2, View.ld_unit_zero (S := S1x4096) hz2,
      View.ld_unit_zero (S := S256x10) hz2, View.ld_unit_zero (S := S256x1) hz2, View.readCov_unit_zero (S := S256x10) _ hz2, View.readCov_unit_zero (S := S256x1) _ hz2]
  · iexists _; isplitr
    swap; · iexact H9
    ipureintro
    sl_unfold_run_names
    rw [read_writes_top _ _ hz2]
    simp only [View.readAt_eq_ld, h2.read_unread, h3.read_unread, h4.read_unread, h5.read_unread, h8.read_unread, h9.read_unread,
      View.ld_unit_zero (S := S256x4096) hz2, View.ld_unit_zero (S := S10x4096) hz2, View.ld_unit_zero (S := S1x4096) hz2,
      View.ld_unit_zero (S := S256x10) hz2, View.ld_unit_zero (S := S256x1) hz2, View.readCov_unit_zero (S := S256x10) _ hz2, View.readCov_unit_zero (S := S256x1) _ hz2]

set_option maxHeartbeats 1600000 in
/-- The first tile of a row block: the accumulators, whatever they held, are zeroed and then advanced one step. -/
theorem runFirst (c : Dev nD) (i : grid0.Coords)
    (a2 : Memref sig .tc .vmem S256x4096 .f32) (h2 : a2.IsWhole) (a3 : Memref sig .tc .vmem S10x4096 .f32) (h3 : a3.IsWhole)
    (a4 : Memref sig .tc .vmem S1x4096 .f32) (h4 : a4.IsWhole) (a5 : Memref sig .tc .vmem S1x4096 .f32) (h5 : a5.IsWhole)
    (a6 : Memref sig .tc .vmem S256x10 .f32) (h6 : a6.IsWhole) (a7 : Memref sig .tc .vmem S256 .f32) (h7 : a7.IsWhole)
    (a8 : Memref sig .tc .vmem S256x10 .f32) (h8 : a8.IsWhole) (a9 : Memref sig .tc .vmem S256x1 .f32) (h9 : a9.IsWhole)
    (hc0 : condFirst i) (hc1 : ¬condLast i)
    (X0 : Vec F S256x4096 .f32) (X1 : Vec F S10x4096 .f32) (X2 X3 : Vec F S1x4096 .f32)
    (E : Set ℕ) (K : PUnit → sProp 𝕄) :
    iprop(owns (c : Thread nD τ) a2 fullShare X0 ∗ owns (c : Thread nD τ) a3 fullShare X1 ∗ owns (c : Thread nD τ) a4 fullShare X2
        ∗ owns (c : Thread nD τ) a5 fullShare X3 ∗ (∃ d, owns (c : Thread nD τ) a8 fullShare d) ∗ (∃ d, owns (c : Thread nD τ) a9 fullShare d)
        ∗ (iprop(owns (c : Thread nD τ) a2 fullShare X0 ∗ owns (c : Thread nD τ) a3 fullShare X1 ∗ owns (c : Thread nD τ) a4 fullShare X2
            ∗ owns (c : Thread nD τ) a5 fullShare X3 ∗ owns (c : Thread nD τ) a8 fullShare (accStep i X0 X1 (k0_pay3 (F := F)))
            ∗ owns (c : Thread nD τ) a9 fullShare (cntStep i X0 X2 X3 (k0_pay4 (F := F)))) -∗ K ⟨⟩))
      ⊢ wp frame (wpE (defs₀ (F := F)) Variants.none c none) E (cc0__fnrd_kernel i a2 h2 a3 h3 a4 h4 a5 h5 a6 h6 a7 h7 a8 h8 a9 h9) K := by
  simp only [cc0__fnrd_kernel_eq_skeleton]; unfold cc0__fnrd_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d8, %f8, -, H8⟩, ⟨%d9, %f9, -, H9⟩, Hk⟩
  obtain rfl := h2.eq_unread hf0; obtain rfl := h3.eq_unread hf1; obtain rfl := h4.eq_unread hf2; obtain rfl := h5.eq_unread hf3
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H8]
  · iexists _; isplitr
    swap; · iexact H8
    ipureintro
    sl_unfold_run_names
    rw [read_writes_top _ _ hz2]
    simp only [View.readAt_eq_ld, h2.read_unread, h3.read_unread, h4.read_unread, h5.read_unread,
      View.ld_unit_zero (S := S256x4096) hz2, View.ld_unit_zero (S := S10x4096) hz2, View.ld_unit_zero (S := S1x4096) hz2,
      View.ld_unit_zero (S := S256x10) hz2, View.ld_unit_zero (S := S256x1) hz2, View.readCov_unit_zero (S := S256x10) _ hz2, View.readCov_unit_zero (S := S256x1) _ hz2]
  · iexists _; isplitr
    swap; · iexact H9
    ipureintro
    sl_unfold_run_names
    rw [read_writes_top _ _ hz2]
    simp only [View.readAt_eq_ld, h2.read_unread, h3.read_unread, h4.read_unread, h5.read_unread,
      View.ld_unit_zero (S := S256x4096) hz2, View.ld_unit_zero (S := S10x4096) hz2, View.ld_unit_zero (S := S1x4096) hz2,
      View.ld_unit_zero (S := S256x10) hz2, View.ld_unit_zero (S := S256x1) hz2, View.readCov_unit_zero (S := S256x10) _ hz2, View.readCov_unit_zero (S := S256x1) _ hz2]

set_option maxHeartbeats 1600000 in
/-- The last tile of a row block: the accumulators are advanced one step, and then the score buffer receives the
    score accumulator and the confidence buffer one minus the counter over the number of columns. -/
theorem runLast (c : Dev nD) (i : grid0.Coords)
    (a2 : Memref sig .tc .vmem S256x4096 .f32) (h2 : a2.IsWhole) (a3 : Memref sig .tc .vmem S10x4096 .f32) (h3 : a3.IsWhole)
    (a4 : Memref sig .tc .vmem S1x4096 .f32) (h4 : a4.IsWhole) (a5 : Memref sig .tc .vmem S1x4096 .f32) (h5 : a5.IsWhole)
    (a6 : Memref sig .tc .vmem S256x10 .f32) (h6 : a6.IsWhole) (a7 : Memref sig .tc .vmem S256 .f32) (h7 : a7.IsWhole)
    (a8 : Memref sig .tc .vmem S256x10 .f32) (h8 : a8.IsWhole) (a9 : Memref sig .tc .vmem S256x1 .f32) (h9 : a9.IsWhole)
    (hc0 : ¬condFirst i) (hc1 : condLast i)
    (X0 : Vec F S256x4096 .f32) (X1 : Vec F S10x4096 .f32) (X2 X3 : Vec F S1x4096 .f32)
    (S0 : Vec F S256x10 .f32) (S1 : Vec F S256x1 .f32) (E : Set ℕ) (K : PUnit → sProp 𝕄) :
    iprop(owns (c : Thread nD τ) a2 fullShare X0 ∗ owns (c : Thread nD τ) a3 fullShare X1 ∗ owns (c : Thread nD τ) a4 fullShare X2
        ∗ owns (c : Thread nD τ) a5 fullShare X3 ∗ (∃ d, owns (c : Thread nD τ) a6 fullShare d) ∗ (∃ d, owns (c : Thread nD τ) a7 fullShare d)
        ∗ owns (c : Thread nD τ) a8 fullShare S0 ∗ owns (c : Thread nD τ) a9 fullShare S1
        ∗ (iprop(owns (c : Thread nD τ) a2 fullShare X0 ∗ owns (c : Thread nD τ) a3 fullShare X1 ∗ owns (c : Thread nD τ) a4 fullShare X2
            ∗ owns (c : Thread nD τ) a5 fullShare X3 ∗ owns (c : Thread nD τ) a6 fullShare (accStep i X0 X1 S0)
            ∗ owns (c : Thread nD τ) a7 fullShare (k0_pay2 (cntStep i X0 X2 X3 S1))
            ∗ owns (c : Thread nD τ) a8 fullShare (accStep i X0 X1 S0)
            ∗ owns (c : Thread nD τ) a9 fullShare (cntStep i X0 X2 X3 S1)) -∗ K ⟨⟩))
      ⊢ wp frame (wpE (defs₀ (F := F)) Variants.none c none) E (cc0__fnrd_kernel i a2 h2 a3 h3 a4 h4 a5 h5 a6 h6 a7 h7 a8 h8 a9 h9) K := by
  simp only [cc0__fnrd_kernel_eq_skeleton]; unfold cc0__fnrd_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%f8, %hf8, H8⟩, ⟨%f9, %hf9, H9⟩, Hk⟩
  obtain rfl := h2.eq_unread hf0; obtain rfl := h3.eq_unread hf1; obtain rfl := h4.eq_unread hf2; obtain rfl := h5.eq_unread hf3
  obtain rfl := h8.eq_unread hf8; obtain rfl := h9.eq_unread hf9
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H6]
  · iexists _; isplitr
    swap; · iexact H6
    ipureintro
    sl_unfold_run_names
    rw [read_writes_top _ _ hz2]
    simp only [View.readAt_eq_ld, h2.read_unread, h3.read_unread, h4.read_unread, h5.read_unread, h8.read_unread, h9.read_unread,
      View.ld_unit_zero (S := S256x4096) hz2, View.ld_unit_zero (S := S10x4096) hz2, View.ld_unit_zero (S := S1x4096) hz2,
      View.ld_unit_zero (S := S256x10) hz2, View.ld_unit_zero (S := S256x1) hz2, View.readCov_unit_zero (S := S256x10) _ hz2, View.readCov_unit_zero (S := S256x1) _ hz2]
  isplitl [H7]
  · iexists _; isplitr
    swap; · iexact H7
    ipureintro
    sl_unfold_run_names
    rw [read_writes_top _ _ hz1]
    simp only [View.readAt_eq_ld, h2.read_unread, h3.read_unread, h4.read_unread, h5.read_unread, h8.read_unread, h9.read_unread,
      View.ld_unit_zero (S := S256x4096) hz2, View.ld_unit_zero (S := S10x4096) hz2, View.ld_unit_zero (S := S1x4096) hz2,
      View.ld_unit_zero (S := S256x10) hz2, View.ld_unit_zero (S := S256x1) hz2, View.readCov_unit_zero (S := S256x10) _ hz2, View.readCov_unit_zero (S := S256x1) _ hz2]
  isplitl [H8]
  · iexists _; isplitr
    swap; · iexact H8
    ipureintro
    sl_unfold_run_names
    rw [read_writes_top _ _ hz2]
    simp only [View.readAt_eq_ld, h2.read_unread, h3.read_unread, h4.read_unread, h5.read_unread, h8.read_unread, h9.read_unread,
      View.ld_unit_zero (S := S256x4096) hz2, View.ld_unit_zero (S := S10x4096) hz2, View.ld_unit_zero (S := S1x4096) hz2,
      View.ld_unit_zero (S := S256x10) hz2, View.ld_unit_zero (S := S256x1) hz2, View.readCov_unit_zero (S := S256x10) _ hz2, View.readCov_unit_zero (S := S256x1) _ hz2]
  · iexists _; isplitr
    swap; · iexact H9
    ipureintro
    sl_unfold_run_names
    rw [read_writes_top _ _ hz2]
    simp only [View.readAt_eq_ld, h2.read_unread, h3.read_unread, h4.read_unread, h5.read_unread, h8.read_unread, h9.read_unread,
      View.ld_unit_zero (S := S256x4096) hz2, View.ld_unit_zero (S := S10x4096) hz2, View.ld_unit_zero (S := S1x4096) hz2,
      View.ld_unit_zero (S := S256x10) hz2, View.ld_unit_zero (S := S256x1) hz2, View.readCov_unit_zero (S := S256x10) _ hz2, View.readCov_unit_zero (S := S256x1) _ hz2]

end Cert.Kernel.Hand

end
-- ==== Proof.MaskTailBits.lean ====
/-
  The column mask of the last tile, read at an index.

  The kernel body walks the 180736 columns in 45 tiles of 4096 columns (45 * 4096 = 184320), so the last tile
  reaches 3584 columns past the end of the activations. Before using a tile the body replaces, by zero, every
  entry whose GLOBAL column `k * 4096 + j` (tile `k`, lane `j`) is not below 180736. The global column is computed
  in 32-bit words (a product, a lane number, a sum) and compared signed against the word 180736; with `k < 45`
  and `j < 4096` the number stays below 2^31, so the words say what the numbers say. Hence the masked tile
  depends only on the entries of the tile at the columns that exist: two tiles that agree there have the same
  masked tile. Everything here holds for every float instance.
-/
import proofs.«128604_j23742579212333_2_alg».proof.Proof.Gen.Kernel.Skeleton
import Idealize.ShloMosaic.Lib.ValueIdx
import Idealize.ShloMosaic.Lib.Pipeline.Value
import Idealize.ShloMosaic.Lib.Affine

noncomputable section

namespace Cert.Kernel.Hand

open Idealize.ShloMosaic Idealize.SL.Sem Idealize.ShloMosaic.ValueIdx Cert.Kernel.Gen

variable {F : FTy → Type} [FloatOps F]

/-- The word arithmetic of the mask: for a tile number `k < 45` and a lane `j < 4096` the signed comparison of
    the word `k * 4096 + j` with the word 180736 yields the bit 1 exactly when the number `k * 4096 + j` is below
    180736 (no product or sum here reaches 2^31, so nothing wraps). -/
theorem mask_word (k j : Nat) (hk : k < 45) (hj : j < 4096) :
    IntOp.cmpi .slt (IntOp.addi (IntOp.muli (BitVec.ofNat 32 k) 4096#32) (BitVec.ofNat 32 j)) 180736#32 = 1#1
      ↔ k * 4096 + j < 180736 := by
  have hw : IntOp.addi (IntOp.muli (BitVec.ofNat 32 k) 4096#32) (BitVec.ofNat 32 j) = BitVec.ofNat 32 (k * 4096 + j) := by
    apply BitVec.eq_of_toNat_eq
    simp only [IntOp.addi, IntOp.muli, BitVec.toNat_add, BitVec.toNat_mul, BitVec.toNat_ofNat]
    omega
  rw [hw, IntOp.cmpi_slt]
  have h1 : (BitVec.ofNat 32 (k * 4096 + j)).toInt = ((k * 4096 + j : Nat) : Int) := by
    rw [BitVec.toInt_eq_toNat_of_lt (by rw [BitVec.toNat_ofNat]; omega), BitVec.toNat_ofNat]
    congr 1
    omega
  have h2 : (180736#32 : BitVec 32).toInt = 180736 := by decide
  rw [h1, h2]
  omega

/-- The tile number of a grid point is below 45. -/
theorem tile_lt (i : grid0.Coords) : (i 1).val < 45 := (i 1).isLt

/-- The mask bit of the body at row `r`, lane `j` of tile `i 1`: it is 1 exactly when the global column
    `(i 1) * 4096 + j` exists, that is, is below 180736. -/
theorem mask_on (i : grid0.Coords) (r : Fin 256) (j : Fin 4096) :
    cmpi .slt (addi (broadcast S256x4096 (Scalar.muli (BitVec.ofNat 32 (i 1).val) 4096#32))
        (iota .tc S256x4096 32 [1] iota_S256x4096_d1_w32)) (broadcast S256x4096 180736#32) (ix2 r j) = 1#1
      ↔ (i 1).val * 4096 + j.val < 180736 := by
  have h := mask_word (i 1).val j.val (tile_lt i) j.isLt
  rw [← h]
  show IntOp.cmpi .slt (IntOp.addi (IntOp.muli (BitVec.ofNat 32 (i 1).val) 4096#32)
      (iota .tc S256x4096 32 [1] iota_S256x4096_d1_w32 (ix2 r j))) 180736#32 = 1#1 ↔ _
  rw [iota_single_apply]

/-- The masked tile at row `r`, lane `j`: the tile's entry where the global column exists, the zero word's float
    elsewhere. -/
theorem pay5_at (i : grid0.Coords) (X : Vec F S256x4096 .f32) (r : Fin 256) (j : Fin 4096) :
    k0_pay5 i X (ix2 r j) = if (i 1).val * 4096 + j.val < 180736 then X (ix2 r j) else (Scalar.ofBits .f32 0x00000000#32 : F .f32) := by
  unfold k0_pay5
  simp only [select_apply]
  by_cases h : (i 1).val * 4096 + j.val < 180736
  · rw [if_pos h, (mask_on i r j).mpr h]; rfl
  · rw [if_neg h, eq_zero_of_ne_one (fun hb => h ((mask_on i r j).mp hb))]; rfl

/-- Two tiles that agree at every column that exists have the same masked tile. -/
theorem pay5_congr (i : grid0.Coords) (X X' : Vec F S256x4096 .f32)
    (h : ∀ (r : Fin 256) (j : Fin 4096), (i 1).val * 4096 + j.val < 180736 → X (ix2 r j) = X' (ix2 r j)) :
    k0_pay5 i X = k0_pay5 i X' := by
  funext y
  obtain ⟨r, j, rfl⟩ : ∃ (r : Fin 256) (j : Fin 4096), y = ix2 r j := ⟨y 0, y 1, eq_ix2 y⟩
  rw [pay5_at, pay5_at]
  by_cases hc : (i 1).val * 4096 + j.val < 180736
  · rw [if_pos hc, if_pos hc]; exact h r j hc
  · rw [if_neg hc, if_neg hc]

end Cert.Kernel.Hand

end
-- ==== Proof.DataBits.lean ====
import proofs.«128604_j23742579212333_2_alg».proof.Proof.Gen.Kernel.Frame
import proofs.«128604_j23742579212333_2_alg».proof.Proof.Gen.Kernel.Skeleton
import Idealize.ShloMosaic.Lib.Pipeline.Value
import proofs.«128604_j23742579212333_2_alg».proof.Proof.BodyBits
import proofs.«128604_j23742579212333_2_alg».proof.Proof.MaskTailBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The schedule over the ninety grid points

The grid is 2 row blocks by 45 tiles, walked row block by row block: point `t` is tile `t % 45` of row block
`t / 45`. The first-tile branch is taken where `t % 45 = 0`, the last-tile branch where `t % 45 = 44`; there, and
only there, the two result windows are stored into and written back. -/

theorem hcondFirst : ∀ t : Fin cfg0.N, condFirst (grid0.coords t) ↔ t.val % 45 = 0 :=
  (by decide +kernel : ∀ t : Fin grid0.N, condFirst (grid0.coords t) ↔ t.val % 45 = 0)
theorem hcondLast : ∀ t : Fin cfg0.N, condLast (grid0.coords t) ↔ t.val % 45 = 44 :=
  (by decide +kernel : ∀ t : Fin grid0.N, condLast (grid0.coords t) ↔ t.val % 45 = 44)
theorem tileOf : ∀ t : Fin cfg0.N, ((grid0.coords t) 1).val = t.val % 45 :=
  (by decide +kernel : ∀ t : Fin grid0.N, ((grid0.coords t) 1).val = t.val % 45)
theorem idleOut4 : ∀ t : Fin cfg0.N, cfg0.idle 4 (grid0.coords t) = !decide (t.val % 45 = 44) :=
  (by decide +kernel : ∀ t : Fin grid0.N, cfg0.idle 4 (grid0.coords t) = !decide (t.val % 45 = 44))
theorem idleOut5 : ∀ t : Fin cfg0.N, cfg0.idle 5 (grid0.coords t) = !decide (t.val % 45 = 44) :=
  (by decide +kernel : ∀ t : Fin grid0.N, cfg0.idle 5 (grid0.coords t) = !decide (t.val % 45 = 44))
/-- Inside the array (global column below 180736) a coordinate of window 0's block is one the fetch moves. -/
theorem movedIn : ∀ t : Fin cfg0.N, win0_0.xsize (grid0.coords t) 0 = 256 ∧ (t.val % 45) * 4096 + win0_0.xsize (grid0.coords t) 1 = min ((t.val % 45) * 4096 + 4096) 180736 :=
  (by decide +kernel : ∀ t : Fin grid0.N, win0_0.xsize (grid0.coords t) 0 = 256 ∧ (t.val % 45) * 4096 + win0_0.xsize (grid0.coords t) 1 = min ((t.val % 45) * 4096 + 4096) 180736)

theorem flush4_of (t : Fin cfg0.N) (h : t.val % 45 = 44) : (cfg0.win 4).flush t = true := (flush0_4 t).mpr h
theorem flush5_of (t : Fin cfg0.N) (h : t.val % 45 = 44) : (cfg0.win 5).flush t = true := (flush0_5 t).mpr h
theorem noflush4_of (t : Fin cfg0.N) (h : ¬t.val % 45 = 44) : (cfg0.win 4).flush t = false :=
  Bool.eq_false_iff.mpr fun hf => h ((flush0_4 t).mp hf)
theorem noflush5_of (t : Fin cfg0.N) (h : ¬t.val % 45 = 44) : (cfg0.win 5).flush t = false :=
  Bool.eq_false_iff.mpr fun hf => h ((flush0_5 t).mp hf)

/-! ## What the accumulators hold, point by point -/

/-- Window 0's buffer as the body's arithmetic sees it at point `t`: the block's part inside the array, and the
    zero word past the array's end (where the mask discards whatever the buffer holds). -/
def ablk (c : Dev nD) (t : Fin cfg0.N) : Vec F S256x4096 .f32 :=
  win0_0.fill (grid0.coords t) (fun _ => Scalar.ofBits .f32 0#32) (iblk m c 0 t)
/-- The blocks of the transposed weights and of the two threshold rows at point `t`. -/
def wblk (c : Dev nD) (t : Fin cfg0.N) : Vec F S10x4096 .f32 := iblk m c 1 t
def mxblk (c : Dev nD) (t : Fin cfg0.N) : Vec F S1x4096 .f32 := iblk m c 2 t
def mnblk (c : Dev nD) (t : Fin cfg0.N) : Vec F S1x4096 .f32 := iblk m c 3 t

/-- One step of the two accumulators at point `t` from the state `s`. -/
def stepAt (c : Dev nD) (t : Fin cfg0.N) (s : Vec F S256x10 .f32 × Vec F S256x1 .f32) : Vec F S256x10 .f32 × Vec F S256x1 .f32 :=
  (accStep (grid0.coords t) (ablk m c t) (wblk m c t) s.1, cntStep (grid0.coords t) (ablk m c t) (mxblk m c t) (mnblk m c t) s.2)

/-- THE ACCUMULATION: the score accumulator and the outlier counter after the body at point `n` — one step from
    zero at the first tile of a row block, one step from what the point before left otherwise. -/
def stAt (c : Dev nD) : (n : ℕ) → n < cfg0.N → Vec F S256x10 .f32 × Vec F S256x1 .f32
  | 0, hn => stepAt m c ⟨0, hn⟩ (k0_pay3, k0_pay4)
  | n + 1, hn => stepAt m c ⟨n + 1, hn⟩ (if (n + 1) % 45 = 0 then (k0_pay3, k0_pay4) else stAt c n (Nat.lt_of_succ_lt hn))

theorem stAt_first (c : Dev nD) (t : Fin cfg0.N) (h : t.val % 45 = 0) : stAt m c t.val t.isLt = stepAt m c t (k0_pay3, k0_pay4) := by
  obtain ⟨n, hn⟩ := t
  cases n with
  | zero => rfl
  | succ n => show stepAt m c _ (if _ then _ else _) = _; rw [if_pos h]

theorem stAt_next (c : Dev nD) (t : Fin cfg0.N) (h : ¬t.val % 45 = 0) :
    stAt m c t.val t.isLt = stepAt m c t (stAt m c (t.val - 1) (Nat.lt_of_le_of_lt (Nat.sub_le _ _) t.isLt)) := by
  obtain ⟨n, hn⟩ := t
  cases n with
  | zero => exact absurd (Nat.zero_mod _) h
  | succ n => show stepAt m c _ (if _ then _ else _) = _; rw [if_neg h]; rfl

/-! ## The invariant: the two scratch accumulators between points -/

abbrev scr0 : Memref sig .tc .vmem S256x10 .f32 := Memref.whole cc0_scratch0
abbrev scr1 : Memref sig .tc .vmem S256x1 .f32 := Memref.whole cc0_scratch1

/-- What the region hands the body before its first point: the two scratch buffers at anything, and the generator
    register at some state. -/
theorem PhiA_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- Before point `n`: at the very start what the region hands over; afterwards the two scratch buffers at what the
    point before left in them. -/
def PhiS (c : Dev nD) : (n : ℕ) → n ≤ cfg0.N → sProp 𝕄
  | 0, _ => Pipeline.ΦA spec0 c
  | n + 1, hn => iprop(iprop(owns (c : Thread nD τ) scr0 fullShare (stAt m c n hn).1 ∗ owns (c : Thread nD τ) scr1 fullShare (stAt m c n hn).2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scr0 fullShare (stAt m c n hn).1 ∗ owns (c : Thread nD τ) scr1 fullShare (stAt m c n hn).2) ∗ (∃ r, prngReg c r)) := rfl
theorem PhiS_pos (c : Dev nD) (n : ℕ) (h : n ≤ cfg0.N) (hz : n ≠ 0) :
    PhiS m c n h = iprop(iprop(owns (c : Thread nD τ) scr0 fullShare (stAt m c (n - 1) (by omega)).1 ∗ owns (c : Thread nD τ) scr1 fullShare (stAt m c (n - 1) (by omega)).2) ∗ (∃ r, prngReg c r)) := by
  cases n with
  | zero => exact absurd rfl hz
  | succ n => rfl

/-! ## The proof data -/

/-- The proof data of the one pipeline on core `c`: the arrays as the region finds them; after the body at point `t`
    the activations' buffer at its block inside the array (zero past its end: the window is clipped and the obligation
    states it on the moved part only), the other inputs' buffers at their blocks, the score buffer at the score
    accumulator and the confidence buffer at one minus the counter over the number of columns (read only at the
    points that write them back); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => ablk m c t
    | ⟨1, _⟩ => iblk m c 1 t
    | ⟨2, _⟩ => iblk m c 2 t
    | ⟨3, _⟩ => iblk m c 3 t
    | ⟨4, _⟩ => (stAt m c t.val t.isLt).1
    | ⟨5, _⟩ => k0_pay2 (stAt m c t.val t.isLt).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = ablk m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (stAt m c t.val t.isLt).1 := by dsimp only [dats]
theorem after5 (c : Dev nD) (t : Fin cfg0.N) : (dats m 0 c).after 5 t = k0_pay2 (stAt m c t.val t.isLt).2 := by dsimp only [dats]

/-! ## What the body finds in each buffer -/

/-- The activations' buffer, fetched at every point: its block on the part the fetch moves, anything (`d`) past the
    array's end. -/
theorem before0 (c : Dev nD) (t : Fin cfg0.N) (d) :
    (dats m 0 c).before 0 t d = win0_0.fill (grid0.coords t) d (iblk m c 0 t) :=
  ((dats m 0 c).before_fetched 0 t (fetch0_0 t) d).trans (by unfold Dat.fetched Dat.blockOf iblk; rw [A_eq]; try rfl)
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- A result window stored into only at the points that write it back holds, when the body runs, whatever it held
    (`d`): fresh at the first point and after a write-back, untouched through the idle points between. -/
theorem before_out {c : Dev nD} (dat : Dat τ (Elt F) Unit ℕ (UR sig nD τ) ℕ cfg0 c) (w : Fin cfg0.W) (hw : (cfg0.win w).isOut = true)
    (hidle : ∀ t : Fin cfg0.N, (cfg0.win w).flush t = false → cfg0.idle w (cfg0.grid.coords t) = true) :
    ∀ (n : ℕ) (hn : n < cfg0.N) (d), dat.before w ⟨n, hn⟩ d = d := by
  intro n
  induction n with
  | zero => intro hn d; exact dat.before_out_reset w hw ⟨0, hn⟩ (.inl rfl) d
  | succ n ih =>
    intro hn d
    by_cases hfl : (cfg0.win w).flush ⟨n, Nat.lt_of_succ_lt hn⟩ = true
    · exact dat.before_out_reset w hw ⟨n + 1, hn⟩ (.inr ⟨Nat.succ_ne_zero n, hfl⟩) d
    · have hfl' : (cfg0.win w).flush ⟨n, Nat.lt_of_succ_lt hn⟩ = false := Bool.eq_false_iff.mpr hfl
      rw [dat.before_of_pos w ⟨n + 1, hn⟩ (Nat.succ_ne_zero n) ((cfg0.win w).fetch_out hw _)]
      show (if (cfg0.win w).flush ⟨n, _⟩ then d else dat.left w ⟨n, _⟩ d) = d
      rw [hfl', if_neg Bool.false_ne_true]
      unfold Dat.left
      rw [hidle ⟨n, Nat.lt_of_succ_lt hn⟩ hfl']
      exact ih _ d

theorem before4 (c : Dev nD) (t : Fin cfg0.N) (d) : (dats m 0 c).before 4 t d = d :=
  before_out (dats m 0 c) 4 rfl (fun t hf => by
    rw [idleOut4 t]; by_cases h : t.val % 45 = 44
    · rw [flush4_of t h] at hf; exact absurd hf (by decide)
    · simp [h]) t.val t.isLt d
theorem before5 (c : Dev nD) (t : Fin cfg0.N) (d) : (dats m 0 c).before 5 t d = d :=
  before_out (dats m 0 c) 5 rfl (fun t hf => by
    rw [idleOut5 t]; by_cases h : t.val % 45 = 44
    · rw [flush5_of t h] at hf; exact absurd hf (by decide)
    · simp [h]) t.val t.isLt d

/-! ## The junk past the array's end does not reach the accumulators -/

/-- Inside the array (global column below 180736) the activations' buffer holds the fetched block, whatever filled
    it before. -/
theorem fill_in {α : Type} (t : Fin cfg0.N) (d d' : S256x4096.Idx → α) (g : (win0_0.xblock (grid0.coords t)).Idx → α)
    (r : Fin 256) (j : Fin 4096) (h : ((grid0.coords t) 1).val * 4096 + j.val < 180736) :
    win0_0.fill (grid0.coords t) d g (ix2 r j) = win0_0.fill (grid0.coords t) d' g (ix2 r j) := by
  have hm : win0_0.moved (grid0.coords t) (ix2 r j) = true := by
    rw [Window.moved_iff]; intro a
    have hx := movedIn t
    rw [tileOf t] at h
    have hj := j.isLt
    match a with
    | ⟨0, _⟩ => show r.val < win0_0.xsize (grid0.coords t) 0; rw [hx.1]; exact r.isLt
    | ⟨1, _⟩ => show j.val < win0_0.xsize (grid0.coords t) 1; omega
  unfold Window.fill; rw [dif_pos hm, dif_pos hm]

/-- So the masked activations do not depend on what filled the buffer past the array's end. -/
theorem mask_fill (t : Fin cfg0.N) (d d' : S256x4096.Idx → Elt F .f32) (g : (win0_0.xblock (grid0.coords t)).Idx → Elt F .f32) :
    k0_pay5 (grid0.coords t) (win0_0.fill (grid0.coords t) d g) = k0_pay5 (grid0.coords t) (win0_0.fill (grid0.coords t) d' g) :=
  pay5_congr _ _ _ fun r j h => fill_in t d d' g r j h

theorem acc_congr (i : grid0.Coords) (X X' : Vec F S256x4096 .f32) (h : k0_pay5 i X = k0_pay5 i X') (X1 : Vec F S10x4096 .f32) (s : Vec F S256x10 .f32) :
    accStep i X X1 s = accStep i X' X1 s := by
  unfold accStep k0_pay6; rw [h]
theorem cnt_congr (i : grid0.Coords) (X X' : Vec F S256x4096 .f32) (h : k0_pay5 i X = k0_pay5 i X') (X2 X3 : Vec F S1x4096 .f32) (s : Vec F S256x1 .f32) :
    cntStep i X X2 X3 s = cntStep i X' X2 X3 s := by
  unfold cntStep k0_pay7; rw [h]

/-- One step from the buffer as the body finds it (anything, `d`, past the array's end) is the step the state is
    defined by. -/
theorem step_found (c : Dev nD) (t : Fin cfg0.N) (d : S256x4096.Idx → Elt F .f32) (s : Vec F S256x10 .f32 × Vec F S256x1 .f32) :
    (accStep (grid0.coords t) (win0_0.fill (grid0.coords t) d (iblk m c 0 t)) (iblk m c 1 t) s.1,
      cntStep (grid0.coords t) (win0_0.fill (grid0.coords t) d (iblk m c 0 t)) (iblk m c 2 t) (iblk m c 3 t) s.2) = stepAt m c t s := by
  unfold stepAt ablk wblk mxblk mnblk
  rw [acc_congr _ _ _ (mask_fill t d (fun _ => Scalar.ofBits .f32 0#32) (iblk m c 0 t)),
    cnt_congr _ _ _ (mask_fill t d (fun _ => Scalar.ofBits .f32 0#32) (iblk m c 0 t))]
  rfl

/-! ## What the body leaves in each buffer -/

theorem leaves0 (c : Dev nD) (t : Fin cfg0.N) :
    (dats m 0 c).leaves 0 t = iprop(∃ d, owns (c : Thread nD τ) (st0_0 t) fullShare (win0_0.fill (grid0.coords t) d (iblk m c 0 t))) := by
  show iprop(∃ d, owns (c : Thread nD τ) (st0_0 t) fullShare (win0_0.fill (grid0.coords t) d (win0_0.cut (grid0.coords t) ((dats m 0 c).after 0 t)))) = _
  rw [after0]; unfold ablk; rw [Window.cut_fill]
theorem leaves1 (c : Dev nD) (t : Fin cfg0.N) : (dats m 0 c).leaves 1 t = owns (c : Thread nD τ) (st0_1 t) fullShare (iblk m c 1 t) := by
  show owns (c : Thread nD τ) (st0_1 t) fullShare ((dats m 0 c).after 1 t) = _; rw [after1]
theorem leaves2 (c : Dev nD) (t : Fin cfg0.N) : (dats m 0 c).leaves 2 t = owns (c : Thread nD τ) (st0_2 t) fullShare (iblk m c 2 t) := by
  show owns (c : Thread nD τ) (st0_2 t) fullShare ((dats m 0 c).after 2 t) = _; rw [after2]
theorem leaves3 (c : Dev nD) (t : Fin cfg0.N) : (dats m 0 c).leaves 3 t = owns (c : Thread nD τ) (st0_3 t) fullShare (iblk m c 3 t) := by
  show owns (c : Thread nD τ) (st0_3 t) fullShare ((dats m 0 c).after 3 t) = _; rw [after3]

theorem leaves4_idle (c : Dev nD) (t : Fin cfg0.N) (h : ¬t.val % 45 = 44) :
    (dats m 0 c).leaves 4 t = iprop(∃ d, owns (c : Thread nD τ) (st0_4 t) fullShare d) := by
  rw [Dat.leaves_idle _ 4 t (by rw [idleOut4 t]; simp [h]) (noflush4_of t h)]; simp only [before4]
theorem leaves5_idle (c : Dev nD) (t : Fin cfg0.N) (h : ¬t.val % 45 = 44) :
    (dats m 0 c).leaves 5 t = iprop(∃ d, owns (c : Thread nD τ) (st0_5 t) fullShare d) := by
  rw [Dat.leaves_idle _ 5 t (by rw [idleOut5 t]; simp [h]) (noflush5_of t h)]; simp only [before5]
theorem leaves4_live (c : Dev nD) (t : Fin cfg0.N) (h : t.val % 45 = 44) :
    (dats m 0 c).leaves 4 t = owns (c : Thread nD τ) (st0_4 t) fullShare (stAt m c t.val t.isLt).1 := by
  unfold Dat.leaves
  rw [show cfg0.idle 4 (cfg0.grid.coords t) = false from by rw [idleOut4 t]; simp [h]]
  show owns (c : Thread nD τ) (st0_4 t) fullShare ((dats m 0 c).after 4 t) = _; rw [after4]
theorem leaves5_live (c : Dev nD) (t : Fin cfg0.N) (h : t.val % 45 = 44) :
    (dats m 0 c).leaves 5 t = owns (c : Thread nD τ) (st0_5 t) fullShare (k0_pay2 (stAt m c t.val t.isLt).2) := by
  unfold Dat.leaves
  rw [show cfg0.idle 5 (cfg0.grid.coords t) = false from by rw [idleOut5 t]; simp [h]]
  show owns (c : Thread nD τ) (st0_5 t) fullShare ((dats m 0 c).after 5 t) = _; rw [after5]

/-! ## The body obligation, at a point -/

/-- What the body is called with at point `t`: the invariant, what the core owes, and each window's current buffer at
    what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- And what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (dats m 0 c).leaves 3 t ∗ (dats m 0 c).leaves 4 t ∗ (dats m 0 c).leaves 5 t)

set_option maxHeartbeats 4800000 in
/-- The body at any point. By the tile: at a first tile the accumulators are taken at anything and left one step from
    zero; at a middle tile taken at what the point before left and left one step further; at a last tile, besides, the
    two result buffers are filled. The activations' buffer arrives with anything past the array's end, which the mask
    discards (`step_found`); the result buffers pass through untouched at the points that do not write them back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 90 := lt_of_lt_of_eq t.isLt (show cfg0.N = 90 from N_0)
  by_cases h0 : t.val % 45 = 0
  · have h1 : ¬t.val % 45 = 44 := by omega
    rw [leaves4_idle m c t h1, leaves5_idle m c t h1, stAt_first m c t h0]
    have hpre : (dats m 0 c).Φ t.castSucc ⊢ iprop(iprop((∃ d, owns (c : Thread nD τ) scr0 fullShare d) ∗ (∃ d, owns (c : Thread nD τ) scr1 fullShare d)) ∗ (∃ r, prngReg c r)) := by
      rw [PhiS_castSucc m c t]
      by_cases hz : t.val = 0
      · rw [PhiS_zero m c _ _ hz, PhiA_eq]
      · rw [PhiS_pos m c _ _ hz]
        iintro ⟨⟨HS0, HS1⟩, Hg⟩
        isplitl [HS0 HS1]
        · isplitl [HS0]
          · iexists _; iexact HS0
          · iexists _; iexact HS1
        iexact Hg
    refine (sep_mono hpre .rfl).trans ?_
    iintro ⟨⟨⟨HS0, HS1⟩, Hg⟩, Ho, ⟨%d0, H0⟩, ⟨%d1, H1⟩, ⟨%d2, H2⟩, ⟨%d3, H3⟩, H4, H5⟩
    iapply (runFirst (F := F) c (grid0.coords t) _ _ _ _ _ _ _ _ _ _ _ _ _ _ _ _ ((hcondFirst t).mpr h0) (fun h => h1 ((hcondLast t).mp h))
      (win0_0.fill (grid0.coords t) d0 (iblk m c 0 t)) (iblk m c 1 t) (iblk m c 2 t) (iblk m c 3 t) Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    rw [← step_found m c t d0 (k0_pay3, k0_pay4)]
    isplitl [HS0 HS1 Hg]
    · isplitl [HS0 HS1]
      · isplitl [HS0]
        · iexact HS0
        · iexact HS1
      iexact Hg
    isplitl [Ho]; · iexact Ho
    isplitl [H0]; · iexists d0; iexact H0
    isplitl [H1]; · iexact H1
    isplitl [H2]; · iexact H2
    isplitl [H3]; · iexact H3
    isplitl [H4]; · iexact H4
    iexact H5
  · have hz : t.val ≠ 0 := fun hz => h0 (by rw [hz])
    rw [stAt_next m c t h0, PhiS_castSucc m c t, PhiS_pos m c _ _ hz]
    by_cases h1 : t.val % 45 = 44
    · rw [leaves4_live m c t h1, leaves5_live m c t h1, stAt_next m c t h0]
      iintro ⟨⟨⟨HS0, HS1⟩, Hg⟩, Ho, ⟨%d0, H0⟩, ⟨%d1, H1⟩, ⟨%d2, H2⟩, ⟨%d3, H3⟩, H4, H5⟩
      iapply (runLast (F := F) c (grid0.coords t) _ _ _ _ _ _ _ _ _ _ _ _ _ _ _ _ (fun h => h0 ((hcondFirst t).mp h)) ((hcondLast t).mpr h1)
        (win0_0.fill (grid0.coords t) d0 (iblk m c 0 t)) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      rw [← step_found m c t d0 _]
      isplitl [HS0 HS1 Hg]
      · isplitl [HS0 HS1]
        · isplitl [HS0]
          · iexact HS0
          · iexact HS1
        iexact Hg
      isplitl [Ho]; · iexact Ho
      isplitl [H0]; · iexists d0; iexact H0
      isplitl [H1]; · iexact H1
      isplitl [H2]; · iexact H2
      isplitl [H3]; · iexact H3
      isplitl [H4]; · iexact H4
      iexact H5
    · rw [leaves4_idle m c t h1, leaves5_idle m c t h1]
      iintro ⟨⟨⟨HS0, HS1⟩, Hg⟩, Ho, ⟨%d0, H0⟩, ⟨%d1, H1⟩, ⟨%d2, H2⟩, ⟨%d3, H3⟩, H4, H5⟩
      iapply (runMid (F := F) c (grid0.coords t) _ _ _ _ _ _ _ _ _ _ _ _ _ _ _ _ (fun h => h0 ((hcondFirst t).mp h)) (fun h => h1 ((hcondLast t).mp h))
        (win0_0.fill (grid0.coords t) d0 (iblk m c 0 t)) (iblk m c 1 t) (iblk m c 2 t) (iblk m c 3 t) _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      rw [← step_found m c t d0 _]
      isplitl [HS0 HS1 Hg]
      · isplitl [HS0 HS1]
        · isplitl [HS0]
          · iexact HS0
          · iexact HS1
        iexact Hg
      isplitl [Ho]; · iexact Ho
      isplitl [H0]; · iexists d0; iexact H0
      isplitl [H1]; · iexact H1
      isplitl [H2]; · iexact H2
      isplitl [H3]; · iexact H3
      isplitl [H4]; · iexact H4
      iexact H5

/-- The library's body obligation, at every point. -/
theorem body_obligation (c : Dev nD) : BodyObligationLoose (dats (F := F) m 0 c) (defs₀ (F := F)) Variants.none () Set.univ := fun t => by
  rw [bigSep_W0, bigSep_W0]
  exact sound_body m c t

/-- What the region hands the body is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives it back: what the accumulators hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 90 := N_0; omega), PhiA_eq]
  iintro ⟨⟨HS0, HS1⟩, Hg⟩
  isplitl [HS0 HS1]
  · isplitl [HS0]
    · iexists _; iexact HS0
    · iexists _; iexact HS1
  iexact Hg

/-! ## The run and the frame -/

set_option backward.isDefEq.respectTransparency.types false in
/-- For any values, from any memory with zero counters: every weakly fair execution of the program terminates, and
    every final state has each array of the pipeline at what the proof data computes (an input what it held, a
    result its blocks as the last tiles left them) and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- The frame: the program runs, faults nowhere, and leaves its four argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.BodyIdeal.lean ====
import proofs.«128604_j23742579212333_2_alg».proof.Proof.Gen.KernelIdeal.Frame
import proofs.«128604_j23742579212333_2_alg».proof.Proof.Gen.KernelIdeal.Skeleton
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's two branches

The body zeroes its two accumulators at the first tile of a row block (grid coordinate 1 equal to 0) and writes the
two results at the last (coordinate 1 equal to 44); between, it only accumulates. -/

/-- The first-tile condition, as the body computes it from the grid coordinates. -/
abbrev condFirst (i : grid0.Coords) : Prop := (Scalar.cmpi .ne (Scalar.extui (Scalar.cmpi .eq (BitVec.ofNat 32 (i 1).val) 0#32)) 0#32) = 1#1
/-- The last-tile condition. -/
abbrev condLast (i : grid0.Coords) : Prop := k0_cond2 i = 1#1

/-- The offsets of a whole-buffer access of rank 2, and of rank 1, are all zero. -/
theorem hz2 : (![0, 0] : Fin 2 → Nat) = fun _ => 0 := funext fun a => by fin_cases a <;> rfl
theorem hz1 : (![0] : Fin 1 → Nat) = fun _ => 0 := funext fun a => by fin_cases a; rfl

/-- A buffer whose LAST write went through the whole-buffer rectangle reads as that write's payload, whatever was
    written before and whatever the buffer held. -/
theorem read_writes_top {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

/-- The score accumulator after one tile: what it held (`s`) plus the tile's masked activations times the tile of
    the transposed weights. -/
abbrev accStep (i : grid0.Coords) (X0 : Vec F S256x4096 .f32) (X1 : Vec F S10x4096 .f32) (s : Vec F S256x10 .f32) : Vec F S256x10 .f32 :=
  k0_pay6 i X0 X1 s
/-- The outlier counter after one tile: what it held plus the tile's row-wise count of activations above the upper
    threshold or below the lower one. -/
abbrev cntStep (i : grid0.Coords) (X0 : Vec F S256x4096 .f32) (X2 X3 : Vec F S1x4096 .f32) (s : Vec F S256x1 .f32) : Vec F S256x1 .f32 :=
  k0_pay1 s (k0_pay7 i X0 X2 X3)

set_option maxHeartbeats 1600000 in
/-- A middle tile: neither branch is taken. The four input buffers are read and left as they were; the two
    accumulators, found at `S0` and `S1`, are left one step further. The two result buffers are not touched. -/
theorem runMid (c : Dev nD) (i : grid0.Coords)
    (a2 : Memref sig .tc .vmem S256x4096 .f32) (h2 : a2.IsWhole) (a3 : Memref sig .tc .vmem S10x4096 .f32) (h3 : a3.IsWhole)
    (a4 : Memref sig .tc .vmem S1x4096 .f32) (h4 : a4.IsWhole) (a5 : Memref sig .tc .vmem S1x4096 .f32) (h5 : a5.IsWhole)
    (a6 : Memref sig .tc .vmem S256x10 .f32) (h6 : a6.IsWhole) (a7 : Memref sig .tc .vmem S256 .f32) (h7 : a7.IsWhole)
    (a8 : Memref sig .tc .vmem S256x10 .f32) (h8 : a8.IsWhole) (a9 : Memref sig .tc .vmem S256x1 .f32) (h9 : a9.IsWhole)
    (hc0 : ¬condFirst i) (hc1 : ¬condLast i)
    (X0 : Vec F S256x4096 .f32) (X1 : Vec F S10x4096 .f32) (X2 X3 : Vec F S1x4096 .f32)
    (S0 : Vec F S256x10 .f32) (S1 : Vec F S256x1 .f32) (E : Set ℕ) (K : PUnit → sProp 𝕄) :
    iprop(owns (c : Thread nD τ) a2 fullShare X0 ∗ owns (c : Thread nD τ) a3 fullShare X1 ∗ owns (c : Thread nD τ) a4 fullShare X2
        ∗ owns (c : Thread nD τ) a5 fullShare X3 ∗ owns (c : Thread nD τ) a8 fullShare S0 ∗ owns (c : Thread nD τ) a9 fullShare S1
        ∗ (iprop(owns (c : Thread nD τ) a2 fullShare X0 ∗ owns (c : Thread nD τ) a3 fullShare X1 ∗ owns (c : Thread nD τ) a4 fullShare X2
            ∗ owns (c : Thread nD τ) a5 fullShare X3 ∗ owns (c : Thread nD τ) a8 fullShare (accStep i X0 X1 S0)
            ∗ owns (c : Thread nD τ) a9 fullShare (cntStep i X0 X2 X3 S1)) -∗ K ⟨⟩))
      ⊢ wp frame (wpE (defs₀ (F := F)) Variants.none c none) E (cc0__fnrd_kernel i a2 h2 a3 h3 a4 h4 a5 h5 a6 h6 a7 h7 a8 h8 a9 h9) K := by
  simp only [cc0__fnrd_kernel_eq_skeleton]; unfold cc0__fnrd_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f8, %hf8, H8⟩, ⟨%f9, %hf9, H9⟩, Hk⟩
  obtain rfl := h2.eq_unread hf0; obtain rfl := h3.eq_unread hf1; obtain rfl := h4.eq_unread hf2; obtain rfl := h5.eq_unread hf3
  obtain rfl := h8.eq_unread hf8; obtain rfl := h9.eq_unread hf9
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H8]
  · iexists _; isplitr
    swap; · iexact H8
    ipureintro
    sl_unfold_run_names
    rw [read_writes_top _ _ hz2]
    simp only [View.readAt_eq_ld, h2.read_unread, h3.read_unread, h4.read_unread, h5.read_unread, h8.read_unread, h9.read_unread,
      View.ld_unit_zero (S := S256x4096) hz2, View.ld_unit_zero (S := S10x4096) hz2, View.ld_unit_zero (S := S1x4096) hz2,
      View.ld_unit_zero (S := S256x10) hz2, View.ld_unit_zero (S := S256x1) hz2, View.readCov_unit_zero (S := S256x10) _ hz2, View.readCov_unit_zero (S := S256x1) _ hz2]
  · iexists _; isplitr
    swap; · iexact H9
    ipureintro
    sl_unfold_run_names
    rw [read_writes_top _ _ hz2]
    simp only [View.readAt_eq_ld, h2.read_unread, h3.read_unread, h4.read_unread, h5.read_unread, h8.read_unread, h9.read_unread,
      View.ld_unit_zero (S := S256x4096) hz2, View.ld_unit_zero (S := S10x4096) hz2, View.ld_unit_zero (S := S1x4096) hz2,
      View.ld_unit_zero (S := S256x10) hz2, View.ld_unit_zero (S := S256x1) hz2, View.readCov_unit_zero (S := S256x10) _ hz2, View.readCov_unit_zero (S := S256x1) _ hz2]

set_option maxHeartbeats 1600000 in
/-- The first tile of a row block: the accumulators, whatever they held, are zeroed and then advanced one step. -/
theorem runFirst (c : Dev nD) (i : grid0.Coords)
    (a2 : Memref sig .tc .vmem S256x4096 .f32) (h2 : a2.IsWhole) (a3 : Memref sig .tc .vmem S10x4096 .f32) (h3 : a3.IsWhole)
    (a4 : Memref sig .tc .vmem S1x4096 .f32) (h4 : a4.IsWhole) (a5 : Memref sig .tc .vmem S1x4096 .f32) (h5 : a5.IsWhole)
    (a6 : Memref sig .tc .vmem S256x10 .f32) (h6 : a6.IsWhole) (a7 : Memref sig .tc .vmem S256 .f32) (h7 : a7.IsWhole)
    (a8 : Memref sig .tc .vmem S256x10 .f32) (h8 : a8.IsWhole) (a9 : Memref sig .tc .vmem S256x1 .f32) (h9 : a9.IsWhole)
    (hc0 : condFirst i) (hc1 : ¬condLast i)
    (X0 : Vec F S256x4096 .f32) (X1 : Vec F S10x4096 .f32) (X2 X3 : Vec F S1x4096 .f32)
    (E : Set ℕ) (K : PUnit → sProp 𝕄) :
    iprop(owns (c : Thread nD τ) a2 fullShare X0 ∗ owns (c : Thread nD τ) a3 fullShare X1 ∗ owns (c : Thread nD τ) a4 fullShare X2
        ∗ owns (c : Thread nD τ) a5 fullShare X3 ∗ (∃ d, owns (c : Thread nD τ) a8 fullShare d) ∗ (∃ d, owns (c : Thread nD τ) a9 fullShare d)
        ∗ (iprop(owns (c : Thread nD τ) a2 fullShare X0 ∗ owns (c : Thread nD τ) a3 fullShare X1 ∗ owns (c : Thread nD τ) a4 fullShare X2
            ∗ owns (c : Thread nD τ) a5 fullShare X3 ∗ owns (c : Thread nD τ) a8 fullShare (accStep i X0 X1 (k0_pay3 (F := F)))
            ∗ owns (c : Thread nD τ) a9 fullShare (cntStep i X0 X2 X3 (k0_pay4 (F := F)))) -∗ K ⟨⟩))
      ⊢ wp frame (wpE (defs₀ (F := F)) Variants.none c none) E (cc0__fnrd_kernel i a2 h2 a3 h3 a4 h4 a5 h5 a6 h6 a7 h7 a8 h8 a9 h9) K := by
  simp only [cc0__fnrd_kernel_eq_skeleton]; unfold cc0__fnrd_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d8, %f8, -, H8⟩, ⟨%d9, %f9, -, H9⟩, Hk⟩
  obtain rfl := h2.eq_unread hf0; obtain rfl := h3.eq_unread hf1; obtain rfl := h4.eq_unread hf2; obtain rfl := h5.eq_unread hf3
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H8]
  · iexists _; isplitr
    swap; · iexact H8
    ipureintro
    sl_unfold_run_names
    rw [read_writes_top _ _ hz2]
    simp only [View.readAt_eq_ld, h2.read_unread, h3.read_unread, h4.read_unread, h5.read_unread,
      View.ld_unit_zero (S := S256x4096) hz2, View.ld_unit_zero (S := S10x4096) hz2, View.ld_unit_zero (S := S1x4096) hz2,
      View.ld_unit_zero (S := S256x10) hz2, View.ld_unit_zero (S := S256x1) hz2, View.readCov_unit_zero (S := S256x10) _ hz2, View.readCov_unit_zero (S := S256x1) _ hz2]
  · iexists _; isplitr
    swap; · iexact H9
    ipureintro
    sl_unfold_run_names
    rw [read_writes_top _ _ hz2]
    simp only [View.readAt_eq_ld, h2.read_unread, h3.read_unread, h4.read_unread, h5.read_unread,
      View.ld_unit_zero (S := S256x4096) hz2, View.ld_unit_zero (S := S10x4096) hz2, View.ld_unit_zero (S := S1x4096) hz2,
      View.ld_unit_zero (S := S256x10) hz2, View.ld_unit_zero (S := S256x1) hz2, View.readCov_unit_zero (S := S256x10) _ hz2, View.readCov_unit_zero (S := S256x1) _ hz2]

set_option maxHeartbeats 1600000 in
/-- The last tile of a row block: the accumulators are advanced one step, and then the score buffer receives the
    score accumulator and the confidence buffer one minus the counter over the number of columns. -/
theorem runLast (c : Dev nD) (i : grid0.Coords)
    (a2 : Memref sig .tc .vmem S256x4096 .f32) (h2 : a2.IsWhole) (a3 : Memref sig .tc .vmem S10x4096 .f32) (h3 : a3.IsWhole)
    (a4 : Memref sig .tc .vmem S1x4096 .f32) (h4 : a4.IsWhole) (a5 : Memref sig .tc .vmem S1x4096 .f32) (h5 : a5.IsWhole)
    (a6 : Memref sig .tc .vmem S256x10 .f32) (h6 : a6.IsWhole) (a7 : Memref sig .tc .vmem S256 .f32) (h7 : a7.IsWhole)
    (a8 : Memref sig .tc .vmem S256x10 .f32) (h8 : a8.IsWhole) (a9 : Memref sig .tc .vmem S256x1 .f32) (h9 : a9.IsWhole)
    (hc0 : ¬condFirst i) (hc1 : condLast i)
    (X0 : Vec F S256x4096 .f32) (X1 : Vec F S10x4096 .f32) (X2 X3 : Vec F S1x4096 .f32)
    (S0 : Vec F S256x10 .f32) (S1 : Vec F S256x1 .f32) (E : Set ℕ) (K : PUnit → sProp 𝕄) :
    iprop(owns (c : Thread nD τ) a2 fullShare X0 ∗ owns (c : Thread nD τ) a3 fullShare X1 ∗ owns (c : Thread nD τ) a4 fullShare X2
        ∗ owns (c : Thread nD τ) a5 fullShare X3 ∗ (∃ d, owns (c : Thread nD τ) a6 fullShare d) ∗ (∃ d, owns (c : Thread nD τ) a7 fullShare d)
        ∗ owns (c : Thread nD τ) a8 fullShare S0 ∗ owns (c : Thread nD τ) a9 fullShare S1
        ∗ (iprop(owns (c : Thread nD τ) a2 fullShare X0 ∗ owns (c : Thread nD τ) a3 fullShare X1 ∗ owns (c : Thread nD τ) a4 fullShare X2
            ∗ owns (c : Thread nD τ) a5 fullShare X3 ∗ owns (c : Thread nD τ) a6 fullShare (accStep i X0 X1 S0)
            ∗ owns (c : Thread nD τ) a7 fullShare (k0_pay2 (cntStep i X0 X2 X3 S1))
            ∗ owns (c : Thread nD τ) a8 fullShare (accStep i X0 X1 S0)
            ∗ owns (c : Thread nD τ) a9 fullShare (cntStep i X0 X2 X3 S1)) -∗ K ⟨⟩))
      ⊢ wp frame (wpE (defs₀ (F := F)) Variants.none c none) E (cc0__fnrd_kernel i a2 h2 a3 h3 a4 h4 a5 h5 a6 h6 a7 h7 a8 h8 a9 h9) K := by
  simp only [cc0__fnrd_kernel_eq_skeleton]; unfold cc0__fnrd_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%f8, %hf8, H8⟩, ⟨%f9, %hf9, H9⟩, Hk⟩
  obtain rfl := h2.eq_unread hf0; obtain rfl := h3.eq_unread hf1; obtain rfl := h4.eq_unread hf2; obtain rfl := h5.eq_unread hf3
  obtain rfl := h8.eq_unread hf8; obtain rfl := h9.eq_unread hf9
  sl_exec (disch := first | exact hc0 | exact hc1)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; · ipureintro; exact h5.read_unread _
    iexact H3
  isplitl [H6]
  · iexists _; isplitr
    swap; · iexact H6
    ipureintro
    sl_unfold_run_names
    rw [read_writes_top _ _ hz2]
    simp only [View.readAt_eq_ld, h2.read_unread, h3.read_unread, h4.read_unread, h5.read_unread, h8.read_unread, h9.read_unread,
      View.ld_unit_zero (S := S256x4096) hz2, View.ld_unit_zero (S := S10x4096) hz2, View.ld_unit_zero (S := S1x4096) hz2,
      View.ld_unit_zero (S := S256x10) hz2, View.ld_unit_zero (S := S256x1) hz2, View.readCov_unit_zero (S := S256x10) _ hz2, View.readCov_unit_zero (S := S256x1) _ hz2]
  isplitl [H7]
  · iexists _; isplitr
    swap; · iexact H7
    ipureintro
    sl_unfold_run_names
    rw [read_writes_top _ _ hz1]
    simp only [View.readAt_eq_ld, h2.read_unread, h3.read_unread, h4.read_unread, h5.read_unread, h8.read_unread, h9.read_unread,
      View.ld_unit_zero (S := S256x4096) hz2, View.ld_unit_zero (S := S10x4096) hz2, View.ld_unit_zero (S := S1x4096) hz2,
      View.ld_unit_zero (S := S256x10) hz2, View.ld_unit_zero (S := S256x1) hz2, View.readCov_unit_zero (S := S256x10) _ hz2, View.readCov_unit_zero (S := S256x1) _ hz2]
  isplitl [H8]
  · iexists _; isplitr
    swap; · iexact H8
    ipureintro
    sl_unfold_run_names
    rw [read_writes_top _ _ hz2]
    simp only [View.readAt_eq_ld, h2.read_unread, h3.read_unread, h4.read_unread, h5.read_unread, h8.read_unread, h9.read_unread,
      View.ld_unit_zero (S := S256x4096) hz2, View.ld_unit_zero (S := S10x4096) hz2, View.ld_unit_zero (S := S1x4096) hz2,
      View.ld_unit_zero (S := S256x10) hz2, View.ld_unit_zero (S := S256x1) hz2, View.readCov_unit_zero (S := S256x10) _ hz2, View.readCov_unit_zero (S := S256x1) _ hz2]
  · iexists _; isplitr
    swap; · iexact H9
    ipureintro
    sl_unfold_run_names
    rw [read_writes_top _ _ hz2]
    simp only [View.readAt_eq_ld, h2.read_unread, h3.read_unread, h4.read_unread, h5.read_unread, h8.read_unread, h9.read_unread,
      View.ld_unit_zero (S := S256x4096) hz2, View.ld_unit_zero (S := S10x4096) hz2, View.ld_unit_zero (S := S1x4096) hz2,
      View.ld_unit_zero (S := S256x10) hz2, View.ld_unit_zero (S := S256x1) hz2, View.readCov_unit_zero (S := S256x10) _ hz2, View.readCov_unit_zero (S := S256x1) _ hz2]

end Cert.KernelIdeal.Hand

end
-- ==== Proof.MaskTail.lean ====
/-
  The column mask of the last tile, read at an index.

  The kernel body walks the 180736 columns in 45 tiles of 4096 columns (45 * 4096 = 184320), so the last tile
  reaches 3584 columns past the end of the activations. Before using a tile the body replaces, by zero, every
  entry whose GLOBAL column `k * 4096 + j` (tile `k`, lane `j`) is not below 180736. The global column is computed
  in 32-bit words (a product, a lane number, a sum) and compared signed against the word 180736; with `k < 45`
  and `j < 4096` the number stays below 2^31, so the words say what the numbers say. Hence the masked tile
  depends only on the entries of the tile at the columns that exist: two tiles that agree there have the same
  masked tile. Everything here holds for every float instance.
-/
import proofs.«128604_j23742579212333_2_alg».proof.Proof.Gen.KernelIdeal.Skeleton
import Idealize.ShloMosaic.Lib.ValueIdx
import Idealize.ShloMosaic.Lib.Pipeline.Value
import Idealize.ShloMosaic.Lib.Affine

noncomputable section

namespace Cert.KernelIdeal.Hand

open Idealize.ShloMosaic Idealize.SL.Sem Idealize.ShloMosaic.ValueIdx Cert.KernelIdeal.Gen

variable {F : FTy → Type} [FloatOps F]

/-- The word arithmetic of the mask: for a tile number `k < 45` and a lane `j < 4096` the signed comparison of
    the word `k * 4096 + j` with the word 180736 yields the bit 1 exactly when the number `k * 4096 + j` is below
    180736 (no product or sum here reaches 2^31, so nothing wraps). -/
theorem mask_word (k j : Nat) (hk : k < 45) (hj : j < 4096) :
    IntOp.cmpi .slt (IntOp.addi (IntOp.muli (BitVec.ofNat 32 k) 4096#32) (BitVec.ofNat 32 j)) 180736#32 = 1#1
      ↔ k * 4096 + j < 180736 := by
  have hw : IntOp.addi (IntOp.muli (BitVec.ofNat 32 k) 4096#32) (BitVec.ofNat 32 j) = BitVec.ofNat 32 (k * 4096 + j) := by
    apply BitVec.eq_of_toNat_eq
    simp only [IntOp.addi, IntOp.muli, BitVec.toNat_add, BitVec.toNat_mul, BitVec.toNat_ofNat]
    omega
  rw [hw, IntOp.cmpi_slt]
  have h1 : (BitVec.ofNat 32 (k * 4096 + j)).toInt = ((k * 4096 + j : Nat) : Int) := by
    rw [BitVec.toInt_eq_toNat_of_lt (by rw [BitVec.toNat_ofNat]; omega), BitVec.toNat_ofNat]
    congr 1
    omega
  have h2 : (180736#32 : BitVec 32).toInt = 180736 := by decide
  rw [h1, h2]
  omega

/-- The tile number of a grid point is below 45. -/
theorem tile_lt (i : grid0.Coords) : (i 1).val < 45 := (i 1).isLt

/-- The mask bit of the body at row `r`, lane `j` of tile `i 1`: it is 1 exactly when the global column
    `(i 1) * 4096 + j` exists, that is, is below 180736. -/
theorem mask_on (i : grid0.Coords) (r : Fin 256) (j : Fin 4096) :
    cmpi .slt (addi (broadcast S256x4096 (Scalar.muli (BitVec.ofNat 32 (i 1).val) 4096#32))
        (iota .tc S256x4096 32 [1] iota_S256x4096_d1_w32)) (broadcast S256x4096 180736#32) (ix2 r j) = 1#1
      ↔ (i 1).val * 4096 + j.val < 180736 := by
  have h := mask_word (i 1).val j.val (tile_lt i) j.isLt
  rw [← h]
  show IntOp.cmpi .slt (IntOp.addi (IntOp.muli (BitVec.ofNat 32 (i 1).val) 4096#32)
      (iota .tc S256x4096 32 [1] iota_S256x4096_d1_w32 (ix2 r j))) 180736#32 = 1#1 ↔ _
  rw [iota_single_apply]

/-- The masked tile at row `r`, lane `j`: the tile's entry where the global column exists, the zero word's float
    elsewhere. -/
theorem pay5_at (i : grid0.Coords) (X : Vec F S256x4096 .f32) (r : Fin 256) (j : Fin 4096) :
    k0_pay5 i X (ix2 r j) = if (i 1).val * 4096 + j.val < 180736 then X (ix2 r j) else (Scalar.ofBits .f32 0x00000000#32 : F .f32) := by
  unfold k0_pay5
  simp only [select_apply]
  by_cases h : (i 1).val * 4096 + j.val < 180736
  · rw [if_pos h, (mask_on i r j).mpr h]; rfl
  · rw [if_neg h, eq_zero_of_ne_one (fun hb => h ((mask_on i r j).mp hb))]; rfl

/-- Two tiles that agree at every column that exists have the same masked tile. -/
theorem pay5_congr (i : grid0.Coords) (X X' : Vec F S256x4096 .f32)
    (h : ∀ (r : Fin 256) (j : Fin 4096), (i 1).val * 4096 + j.val < 180736 → X (ix2 r j) = X' (ix2 r j)) :
    k0_pay5 i X = k0_pay5 i X' := by
  funext y
  obtain ⟨r, j, rfl⟩ : ∃ (r : Fin 256) (j : Fin 4096), y = ix2 r j := ⟨y 0, y 1, eq_ix2 y⟩
  rw [pay5_at, pay5_at]
  by_cases hc : (i 1).val * 4096 + j.val < 180736
  · rw [if_pos hc, if_pos hc]; exact h r j hc
  · rw [if_neg hc, if_neg hc]

end Cert.KernelIdeal.Hand

end
-- ==== Proof.DataIdeal.lean ====
import proofs.«128604_j23742579212333_2_alg».proof.Proof.Gen.KernelIdeal.Frame
import proofs.«128604_j23742579212333_2_alg».proof.Proof.Gen.KernelIdeal.Skeleton
import Idealize.ShloMosaic.Lib.Pipeline.Value
import proofs.«128604_j23742579212333_2_alg».proof.Proof.BodyIdeal
import proofs.«128604_j23742579212333_2_alg».proof.Proof.MaskTail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-! ## The schedule over the ninety grid points

The grid is 2 row blocks by 45 tiles, walked row block by row block: point `t` is tile `t % 45` of row block
`t / 45`. The first-tile branch is taken where `t % 45 = 0`, the last-tile branch where `t % 45 = 44`; there, and
only there, the two result windows are stored into and written back. -/

theorem hcondFirst : ∀ t : Fin cfg0.N, condFirst (grid0.coords t) ↔ t.val % 45 = 0 :=
  (by decide +kernel : ∀ t : Fin grid0.N, condFirst (grid0.coords t) ↔ t.val % 45 = 0)
theorem hcondLast : ∀ t : Fin cfg0.N, condLast (grid0.coords t) ↔ t.val % 45 = 44 :=
  (by decide +kernel : ∀ t : Fin grid0.N, condLast (grid0.coords t) ↔ t.val % 45 = 44)
theorem tileOf : ∀ t : Fin cfg0.N, ((grid0.coords t) 1).val = t.val % 45 :=
  (by decide +kernel : ∀ t : Fin grid0.N, ((grid0.coords t) 1).val = t.val % 45)
theorem idleOut4 : ∀ t : Fin cfg0.N, cfg0.idle 4 (grid0.coords t) = !decide (t.val % 45 = 44) :=
  (by decide +kernel : ∀ t : Fin grid0.N, cfg0.idle 4 (grid0.coords t) = !decide (t.val % 45 = 44))
theorem idleOut5 : ∀ t : Fin cfg0.N, cfg0.idle 5 (grid0.coords t) = !decide (t.val % 45 = 44) :=
  (by decide +kernel : ∀ t : Fin grid0.N, cfg0.idle 5 (grid0.coords t) = !decide (t.val % 45 = 44))
/-- Inside the array (global column below 180736) a coordinate of window 0's block is one the fetch moves. -/
theorem movedIn : ∀ t : Fin cfg0.N, win0_0.xsize (grid0.coords t) 0 = 256 ∧ (t.val % 45) * 4096 + win0_0.xsize (grid0.coords t) 1 = min ((t.val % 45) * 4096 + 4096) 180736 :=
  (by decide +kernel : ∀ t : Fin grid0.N, win0_0.xsize (grid0.coords t) 0 = 256 ∧ (t.val % 45) * 4096 + win0_0.xsize (grid0.coords t) 1 = min ((t.val % 45) * 4096 + 4096) 180736)

theorem flush4_of (t : Fin cfg0.N) (h : t.val % 45 = 44) : (cfg0.win 4).flush t = true := (flush0_4 t).mpr h
theorem flush5_of (t : Fin cfg0.N) (h : t.val % 45 = 44) : (cfg0.win 5).flush t = true := (flush0_5 t).mpr h
theorem noflush4_of (t : Fin cfg0.N) (h : ¬t.val % 45 = 44) : (cfg0.win 4).flush t = false :=
  Bool.eq_false_iff.mpr fun hf => h ((flush0_4 t).mp hf)
theorem noflush5_of (t : Fin cfg0.N) (h : ¬t.val % 45 = 44) : (cfg0.win 5).flush t = false :=
  Bool.eq_false_iff.mpr fun hf => h ((flush0_5 t).mp hf)

/-! ## What the accumulators hold, point by point -/

/-- Window 0's buffer as the body's arithmetic sees it at point `t`: the block's part inside the array, and the
    zero word past the array's end (where the mask discards whatever the buffer holds). -/
def ablk (c : Dev nD) (t : Fin cfg0.N) : Vec F S256x4096 .f32 :=
  win0_0.fill (grid0.coords t) (fun _ => Scalar.ofBits .f32 0#32) (iblk m c 0 t)
/-- The blocks of the transposed weights and of the two threshold rows at point `t`. -/
def wblk (c : Dev nD) (t : Fin cfg0.N) : Vec F S10x4096 .f32 := iblk m c 1 t
def mxblk (c : Dev nD) (t : Fin cfg0.N) : Vec F S1x4096 .f32 := iblk m c 2 t
def mnblk (c : Dev nD) (t : Fin cfg0.N) : Vec F S1x4096 .f32 := iblk m c 3 t

/-- One step of the two accumulators at point `t` from the state `s`. -/
def stepAt (c : Dev nD) (t : Fin cfg0.N) (s : Vec F S256x10 .f32 × Vec F S256x1 .f32) : Vec F S256x10 .f32 × Vec F S256x1 .f32 :=
  (accStep (grid0.coords t) (ablk m c t) (wblk m c t) s.1, cntStep (grid0.coords t) (ablk m c t) (mxblk m c t) (mnblk m c t) s.2)

/-- THE ACCUMULATION: the score accumulator and the outlier counter after the body at point `n` — one step from
    zero at the first tile of a row block, one step from what the point before left otherwise. -/
def stAt (c : Dev nD) : (n : ℕ) → n < cfg0.N → Vec F S256x10 .f32 × Vec F S256x1 .f32
  | 0, hn => stepAt m c ⟨0, hn⟩ (k0_pay3, k0_pay4)
  | n + 1, hn => stepAt m c ⟨n + 1, hn⟩ (if (n + 1) % 45 = 0 then (k0_pay3, k0_pay4) else stAt c n (Nat.lt_of_succ_lt hn))

theorem stAt_first (c : Dev nD) (t : Fin cfg0.N) (h : t.val % 45 = 0) : stAt m c t.val t.isLt = stepAt m c t (k0_pay3, k0_pay4) := by
  obtain ⟨n, hn⟩ := t
  cases n with
  | zero => rfl
  | succ n => show stepAt m c _ (if _ then _ else _) = _; rw [if_pos h]

theorem stAt_next (c : Dev nD) (t : Fin cfg0.N) (h : ¬t.val % 45 = 0) :
    stAt m c t.val t.isLt = stepAt m c t (stAt m c (t.val - 1) (Nat.lt_of_le_of_lt (Nat.sub_le _ _) t.isLt)) := by
  obtain ⟨n, hn⟩ := t
  cases n with
  | zero => exact absurd (Nat.zero_mod _) h
  | succ n => show stepAt m c _ (if _ then _ else _) = _; rw [if_neg h]; rfl

/-! ## The invariant: the two scratch accumulators between points -/

abbrev scr0 : Memref sig .tc .vmem S256x10 .f32 := Memref.whole cc0_scratch0
abbrev scr1 : Memref sig .tc .vmem S256x1 .f32 := Memref.whole cc0_scratch1

/-- What the region hands the body before its first point: the two scratch buffers at anything, and the generator
    register at some state. -/
theorem PhiA_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

/-- Before point `n`: at the very start what the region hands over; afterwards the two scratch buffers at what the
    point before left in them. -/
def PhiS (c : Dev nD) : (n : ℕ) → n ≤ cfg0.N → sProp 𝕄
  | 0, _ => Pipeline.ΦA spec0 c
  | n + 1, hn => iprop(iprop(owns (c : Thread nD τ) scr0 fullShare (stAt m c n hn).1 ∗ owns (c : Thread nD τ) scr1 fullShare (stAt m c n hn).2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scr0 fullShare (stAt m c n hn).1 ∗ owns (c : Thread nD τ) scr1 fullShare (stAt m c n hn).2) ∗ (∃ r, prngReg c r)) := rfl
theorem PhiS_pos (c : Dev nD) (n : ℕ) (h : n ≤ cfg0.N) (hz : n ≠ 0) :
    PhiS m c n h = iprop(iprop(owns (c : Thread nD τ) scr0 fullShare (stAt m c (n - 1) (by omega)).1 ∗ owns (c : Thread nD τ) scr1 fullShare (stAt m c (n - 1) (by omega)).2) ∗ (∃ r, prngReg c r)) := by
  cases n with
  | zero => exact absurd rfl hz
  | succ n => rfl

/-! ## The proof data -/

/-- The proof data of the one pipeline on core `c`: the arrays as the region finds them; after the body at point `t`
    the activations' buffer at its block inside the array (zero past its end: the window is clipped and the obligation
    states it on the moved part only), the other inputs' buffers at their blocks, the score buffer at the score
    accumulator and the confidence buffer at one minus the counter over the number of columns (read only at the
    points that write them back); the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => ablk m c t
    | ⟨1, _⟩ => iblk m c 1 t
    | ⟨2, _⟩ => iblk m c 2 t
    | ⟨3, _⟩ => iblk m c 3 t
    | ⟨4, _⟩ => (stAt m c t.val t.isLt).1
    | ⟨5, _⟩ => k0_pay2 (stAt m c t.val t.isLt).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = ablk m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (stAt m c t.val t.isLt).1 := by dsimp only [dats]
theorem after5 (c : Dev nD) (t : Fin cfg0.N) : (dats m 0 c).after 5 t = k0_pay2 (stAt m c t.val t.isLt).2 := by dsimp only [dats]

/-! ## What the body finds in each buffer -/

/-- The activations' buffer, fetched at every point: its block on the part the fetch moves, anything (`d`) past the
    array's end. -/
theorem before0 (c : Dev nD) (t : Fin cfg0.N) (d) :
    (dats m 0 c).before 0 t d = win0_0.fill (grid0.coords t) d (iblk m c 0 t) :=
  ((dats m 0 c).before_fetched 0 t (fetch0_0 t) d).trans (by unfold Dat.fetched Dat.blockOf iblk; rw [A_eq]; try rfl)
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- A result window stored into only at the points that write it back holds, when the body runs, whatever it held
    (`d`): fresh at the first point and after a write-back, untouched through the idle points between. -/
theorem before_out {c : Dev nD} (dat : Dat τ (Elt F) Unit ℕ (UR sig nD τ) ℕ cfg0 c) (w : Fin cfg0.W) (hw : (cfg0.win w).isOut = true)
    (hidle : ∀ t : Fin cfg0.N, (cfg0.win w).flush t = false → cfg0.idle w (cfg0.grid.coords t) = true) :
    ∀ (n : ℕ) (hn : n < cfg0.N) (d), dat.before w ⟨n, hn⟩ d = d := by
  intro n
  induction n with
  | zero => intro hn d; exact dat.before_out_reset w hw ⟨0, hn⟩ (.inl rfl) d
  | succ n ih =>
    intro hn d
    by_cases hfl : (cfg0.win w).flush ⟨n, Nat.lt_of_succ_lt hn⟩ = true
    · exact dat.before_out_reset w hw ⟨n + 1, hn⟩ (.inr ⟨Nat.succ_ne_zero n, hfl⟩) d
    · have hfl' : (cfg0.win w).flush ⟨n, Nat.lt_of_succ_lt hn⟩ = false := Bool.eq_false_iff.mpr hfl
      rw [dat.before_of_pos w ⟨n + 1, hn⟩ (Nat.succ_ne_zero n) ((cfg0.win w).fetch_out hw _)]
      show (if (cfg0.win w).flush ⟨n, _⟩ then d else dat.left w ⟨n, _⟩ d) = d
      rw [hfl', if_neg Bool.false_ne_true]
      unfold Dat.left
      rw [hidle ⟨n, Nat.lt_of_succ_lt hn⟩ hfl']
      exact ih _ d

theorem before4 (c : Dev nD) (t : Fin cfg0.N) (d) : (dats m 0 c).before 4 t d = d :=
  before_out (dats m 0 c) 4 rfl (fun t hf => by
    rw [idleOut4 t]; by_cases h : t.val % 45 = 44
    · rw [flush4_of t h] at hf; exact absurd hf (by decide)
    · simp [h]) t.val t.isLt d
theorem before5 (c : Dev nD) (t : Fin cfg0.N) (d) : (dats m 0 c).before 5 t d = d :=
  before_out (dats m 0 c) 5 rfl (fun t hf => by
    rw [idleOut5 t]; by_cases h : t.val % 45 = 44
    · rw [flush5_of t h] at hf; exact absurd hf (by decide)
    · simp [h]) t.val t.isLt d

/-! ## The junk past the array's end does not reach the accumulators -/

/-- Inside the array (global column below 180736) the activations' buffer holds the fetched block, whatever filled
    it before. -/
theorem fill_in {α : Type} (t : Fin cfg0.N) (d d' : S256x4096.Idx → α) (g : (win0_0.xblock (grid0.coords t)).Idx → α)
    (r : Fin 256) (j : Fin 4096) (h : ((grid0.coords t) 1).val * 4096 + j.val < 180736) :
    win0_0.fill (grid0.coords t) d g (ix2 r j) = win0_0.fill (grid0.coords t) d' g (ix2 r j) := by
  have hm : win0_0.moved (grid0.coords t) (ix2 r j) = true := by
    rw [Window.moved_iff]; intro a
    have hx := movedIn t
    rw [tileOf t] at h
    have hj := j.isLt
    match a with
    | ⟨0, _⟩ => show r.val < win0_0.xsize (grid0.coords t) 0; rw [hx.1]; exact r.isLt
    | ⟨1, _⟩ => show j.val < win0_0.xsize (grid0.coords t) 1; omega
  unfold Window.fill; rw [dif_pos hm, dif_pos hm]

/-- So the masked activations do not depend on what filled the buffer past the array's end. -/
theorem mask_fill (t : Fin cfg0.N) (d d' : S256x4096.Idx → Elt F .f32) (g : (win0_0.xblock (grid0.coords t)).Idx → Elt F .f32) :
    k0_pay5 (grid0.coords t) (win0_0.fill (grid0.coords t) d g) = k0_pay5 (grid0.coords t) (win0_0.fill (grid0.coords t) d' g) :=
  pay5_congr _ _ _ fun r j h => fill_in t d d' g r j h

theorem acc_congr (i : grid0.Coords) (X X' : Vec F S256x4096 .f32) (h : k0_pay5 i X = k0_pay5 i X') (X1 : Vec F S10x4096 .f32) (s : Vec F S256x10 .f32) :
    accStep i X X1 s = accStep i X' X1 s := by
  unfold accStep k0_pay6; rw [h]
theorem cnt_congr (i : grid0.Coords) (X X' : Vec F S256x4096 .f32) (h : k0_pay5 i X = k0_pay5 i X') (X2 X3 : Vec F S1x4096 .f32) (s : Vec F S256x1 .f32) :
    cntStep i X X2 X3 s = cntStep i X' X2 X3 s := by
  unfold cntStep k0_pay7; rw [h]

/-- One step from the buffer as the body finds it (anything, `d`, past the array's end) is the step the state is
    defined by. -/
theorem step_found (c : Dev nD) (t : Fin cfg0.N) (d : S256x4096.Idx → Elt F .f32) (s : Vec F S256x10 .f32 × Vec F S256x1 .f32) :
    (accStep (grid0.coords t) (win0_0.fill (grid0.coords t) d (iblk m c 0 t)) (iblk m c 1 t) s.1,
      cntStep (grid0.coords t) (win0_0.fill (grid0.coords t) d (iblk m c 0 t)) (iblk m c 2 t) (iblk m c 3 t) s.2) = stepAt m c t s := by
  unfold stepAt ablk wblk mxblk mnblk
  rw [acc_congr _ _ _ (mask_fill t d (fun _ => Scalar.ofBits .f32 0#32) (iblk m c 0 t)),
    cnt_congr _ _ _ (mask_fill t d (fun _ => Scalar.ofBits .f32 0#32) (iblk m c 0 t))]
  rfl

/-! ## What the body leaves in each buffer -/

theorem leaves0 (c : Dev nD) (t : Fin cfg0.N) :
    (dats m 0 c).leaves 0 t = iprop(∃ d, owns (c : Thread nD τ) (st0_0 t) fullShare (win0_0.fill (grid0.coords t) d (iblk m c 0 t))) := by
  show iprop(∃ d, owns (c : Thread nD τ) (st0_0 t) fullShare (win0_0.fill (grid0.coords t) d (win0_0.cut (grid0.coords t) ((dats m 0 c).after 0 t)))) = _
  rw [after0]; unfold ablk; rw [Window.cut_fill]
theorem leaves1 (c : Dev nD) (t : Fin cfg0.N) : (dats m 0 c).leaves 1 t = owns (c : Thread nD τ) (st0_1 t) fullShare (iblk m c 1 t) := by
  show owns (c : Thread nD τ) (st0_1 t) fullShare ((dats m 0 c).after 1 t) = _; rw [after1]
theorem leaves2 (c : Dev nD) (t : Fin cfg0.N) : (dats m 0 c).leaves 2 t = owns (c : Thread nD τ) (st0_2 t) fullShare (iblk m c 2 t) := by
  show owns (c : Thread nD τ) (st0_2 t) fullShare ((dats m 0 c).after 2 t) = _; rw [after2]
theorem leaves3 (c : Dev nD) (t : Fin cfg0.N) : (dats m 0 c).leaves 3 t = owns (c : Thread nD τ) (st0_3 t) fullShare (iblk m c 3 t) := by
  show owns (c : Thread nD τ) (st0_3 t) fullShare ((dats m 0 c).after 3 t) = _; rw [after3]

theorem leaves4_idle (c : Dev nD) (t : Fin cfg0.N) (h : ¬t.val % 45 = 44) :
    (dats m 0 c).leaves 4 t = iprop(∃ d, owns (c : Thread nD τ) (st0_4 t) fullShare d) := by
  rw [Dat.leaves_idle _ 4 t (by rw [idleOut4 t]; simp [h]) (noflush4_of t h)]; simp only [before4]
theorem leaves5_idle (c : Dev nD) (t : Fin cfg0.N) (h : ¬t.val % 45 = 44) :
    (dats m 0 c).leaves 5 t = iprop(∃ d, owns (c : Thread nD τ) (st0_5 t) fullShare d) := by
  rw [Dat.leaves_idle _ 5 t (by rw [idleOut5 t]; simp [h]) (noflush5_of t h)]; simp only [before5]
theorem leaves4_live (c : Dev nD) (t : Fin cfg0.N) (h : t.val % 45 = 44) :
    (dats m 0 c).leaves 4 t = owns (c : Thread nD τ) (st0_4 t) fullShare (stAt m c t.val t.isLt).1 := by
  unfold Dat.leaves
  rw [show cfg0.idle 4 (cfg0.grid.coords t) = false from by rw [idleOut4 t]; simp [h]]
  show owns (c : Thread nD τ) (st0_4 t) fullShare ((dats m 0 c).after 4 t) = _; rw [after4]
theorem leaves5_live (c : Dev nD) (t : Fin cfg0.N) (h : t.val % 45 = 44) :
    (dats m 0 c).leaves 5 t = owns (c : Thread nD τ) (st0_5 t) fullShare (k0_pay2 (stAt m c t.val t.isLt).2) := by
  unfold Dat.leaves
  rw [show cfg0.idle 5 (cfg0.grid.coords t) = false from by rw [idleOut5 t]; simp [h]]
  show owns (c : Thread nD τ) (st0_5 t) fullShare ((dats m 0 c).after 5 t) = _; rw [after5]

/-! ## The body obligation, at a point -/

/-- What the body is called with at point `t`: the invariant, what the core owes, and each window's current buffer at
    what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- And what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (dats m 0 c).leaves 3 t ∗ (dats m 0 c).leaves 4 t ∗ (dats m 0 c).leaves 5 t)

set_option maxHeartbeats 4800000 in
/-- The body at any point. By the tile: at a first tile the accumulators are taken at anything and left one step from
    zero; at a middle tile taken at what the point before left and left one step further; at a last tile, besides, the
    two result buffers are filled. The activations' buffer arrives with anything past the array's end, which the mask
    discards (`step_found`); the result buffers pass through untouched at the points that do not write them back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 90 := lt_of_lt_of_eq t.isLt (show cfg0.N = 90 from N_0)
  by_cases h0 : t.val % 45 = 0
  · have h1 : ¬t.val % 45 = 44 := by omega
    rw [leaves4_idle m c t h1, leaves5_idle m c t h1, stAt_first m c t h0]
    have hpre : (dats m 0 c).Φ t.castSucc ⊢ iprop(iprop((∃ d, owns (c : Thread nD τ) scr0 fullShare d) ∗ (∃ d, owns (c : Thread nD τ) scr1 fullShare d)) ∗ (∃ r, prngReg c r)) := by
      rw [PhiS_castSucc m c t]
      by_cases hz : t.val = 0
      · rw [PhiS_zero m c _ _ hz, PhiA_eq]
      · rw [PhiS_pos m c _ _ hz]
        iintro ⟨⟨HS0, HS1⟩, Hg⟩
        isplitl [HS0 HS1]
        · isplitl [HS0]
          · iexists _; iexact HS0
          · iexists _; iexact HS1
        iexact Hg
    refine (sep_mono hpre .rfl).trans ?_
    iintro ⟨⟨⟨HS0, HS1⟩, Hg⟩, Ho, ⟨%d0, H0⟩, ⟨%d1, H1⟩, ⟨%d2, H2⟩, ⟨%d3, H3⟩, H4, H5⟩
    iapply (runFirst (F := F) c (grid0.coords t) _ _ _ _ _ _ _ _ _ _ _ _ _ _ _ _ ((hcondFirst t).mpr h0) (fun h => h1 ((hcondLast t).mp h))
      (win0_0.fill (grid0.coords t) d0 (iblk m c 0 t)) (iblk m c 1 t) (iblk m c 2 t) (iblk m c 3 t) Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    rw [← step_found m c t d0 (k0_pay3, k0_pay4)]
    isplitl [HS0 HS1 Hg]
    · isplitl [HS0 HS1]
      · isplitl [HS0]
        · iexact HS0
        · iexact HS1
      iexact Hg
    isplitl [Ho]; · iexact Ho
    isplitl [H0]; · iexists d0; iexact H0
    isplitl [H1]; · iexact H1
    isplitl [H2]; · iexact H2
    isplitl [H3]; · iexact H3
    isplitl [H4]; · iexact H4
    iexact H5
  · have hz : t.val ≠ 0 := fun hz => h0 (by rw [hz])
    rw [stAt_next m c t h0, PhiS_castSucc m c t, PhiS_pos m c _ _ hz]
    by_cases h1 : t.val % 45 = 44
    · rw [leaves4_live m c t h1, leaves5_live m c t h1, stAt_next m c t h0]
      iintro ⟨⟨⟨HS0, HS1⟩, Hg⟩, Ho, ⟨%d0, H0⟩, ⟨%d1, H1⟩, ⟨%d2, H2⟩, ⟨%d3, H3⟩, H4, H5⟩
      iapply (runLast (F := F) c (grid0.coords t) _ _ _ _ _ _ _ _ _ _ _ _ _ _ _ _ (fun h => h0 ((hcondFirst t).mp h)) ((hcondLast t).mpr h1)
        (win0_0.fill (grid0.coords t) d0 (iblk m c 0 t)) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      rw [← step_found m c t d0 _]
      isplitl [HS0 HS1 Hg]
      · isplitl [HS0 HS1]
        · isplitl [HS0]
          · iexact HS0
          · iexact HS1
        iexact Hg
      isplitl [Ho]; · iexact Ho
      isplitl [H0]; · iexists d0; iexact H0
      isplitl [H1]; · iexact H1
      isplitl [H2]; · iexact H2
      isplitl [H3]; · iexact H3
      isplitl [H4]; · iexact H4
      iexact H5
    · rw [leaves4_idle m c t h1, leaves5_idle m c t h1]
      iintro ⟨⟨⟨HS0, HS1⟩, Hg⟩, Ho, ⟨%d0, H0⟩, ⟨%d1, H1⟩, ⟨%d2, H2⟩, ⟨%d3, H3⟩, H4, H5⟩
      iapply (runMid (F := F) c (grid0.coords t) _ _ _ _ _ _ _ _ _ _ _ _ _ _ _ _ (fun h => h0 ((hcondFirst t).mp h)) (fun h => h1 ((hcondLast t).mp h))
        (win0_0.fill (grid0.coords t) d0 (iblk m c 0 t)) (iblk m c 1 t) (iblk m c 2 t) (iblk m c 3 t) _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      rw [← step_found m c t d0 _]
      isplitl [HS0 HS1 Hg]
      · isplitl [HS0 HS1]
        · isplitl [HS0]
          · iexact HS0
          · iexact HS1
        iexact Hg
      isplitl [Ho]; · iexact Ho
      isplitl [H0]; · iexists d0; iexact H0
      isplitl [H1]; · iexact H1
      isplitl [H2]; · iexact H2
      isplitl [H3]; · iexact H3
      isplitl [H4]; · iexact H4
      iexact H5

/-- The library's body obligation, at every point. -/
theorem body_obligation (c : Dev nD) : BodyObligationLoose (dats (F := F) m 0 c) (defs₀ (F := F)) Variants.none () Set.univ := fun t => by
  rw [bigSep_W0, bigSep_W0]
  exact sound_body m c t

/-- What the region hands the body is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives it back: what the accumulators hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 90 := N_0; omega), PhiA_eq]
  iintro ⟨⟨HS0, HS1⟩, Hg⟩
  isplitl [HS0 HS1]
  · isplitl [HS0]
    · iexists _; iexact HS0
    · iexists _; iexact HS1
  iexact Hg

/-! ## The run and the frame -/

set_option backward.isDefEq.respectTransparency.types false in
/-- For any values, from any memory with zero counters: every weakly fair execution of the program terminates, and
    every final state has each array of the pipeline at what the proof data computes (an input what it held, a
    result its blocks as the last tiles left them) and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- The frame: the program runs, faults nowhere, and leaves its four argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.Spec.lean ====
/-
  The two results as functions of the four argument arrays, over the extended reals.

  For activations `A` (512 rows, 180736 columns), a weight matrix `W` (180736 × 10) and two threshold vectors
  `MX`, `MN` of length 180736:
    * the class scores: entry (n, c) is the sum over all 180736 columns k of `A (n, k) * W (k, c)`;
    * the outlier count of row n: the number of columns whose activation lies strictly above its upper threshold,
      plus the number of columns whose activation lies strictly below its lower threshold (a column counts twice
      when it does both), each comparison read as the extended real 0 or 1;
    * the confidence of row n: one minus the count divided by 180736, the two literals kept as the binary32 words
      the programs spell (the same words on both sides, so they are never evaluated).
  No program is imported: both the kernel's side and the reference's side are shown equal to these functions.
-/
import Idealize.ShloMosaic.PureOps.Ideal
import Idealize.ShloMosaic.Lib.ValueIdx

noncomputable section

open scoped BigOperators

namespace Cert.OutlierHead

open Idealize.ShloMosaic Idealize.ShloMosaic.ValueIdx

/-- A float comparison of two extended reals read as a number: 1 when it holds, 0 when it does not. -/
def ind (p : CmpFPredicate) (a b : EReal) : EReal := (((Ideal.cmp p a b).toNat : ℝ) : EReal)

/-- The class scores: entry (n, c) sums `A (n, k) * W (k, c)` over every column k. -/
def predG (A : (⟨2, ![512, 180736]⟩ : Shape).Idx → EReal) (W : (⟨2, ![180736, 10]⟩ : Shape).Idx → EReal) :
    (⟨2, ![512, 10]⟩ : Shape).Idx → EReal :=
  fun i => ∑ k : Fin 180736, A (ix2 (i 0) k) * W (ix2 k (i 1))

/-- Row n's outlier count: columns above the upper threshold, plus columns below the lower threshold. -/
def cntG (A : (⟨2, ![512, 180736]⟩ : Shape).Idx → EReal) (MX MN : (⟨1, ![180736]⟩ : Shape).Idx → EReal) (n : Fin 512) : EReal :=
  (∑ k : Fin 180736, ind .ogt (A (ix2 n k)) (MX (ix1 k))) + ∑ k : Fin 180736, ind .olt (A (ix2 n k)) (MN (ix1 k))

/-- Row n's confidence: one minus the outlier count over the number of columns. -/
def cfdG (A : (⟨2, ![512, 180736]⟩ : Shape).Idx → EReal) (MX MN : (⟨1, ![180736]⟩ : Shape).Idx → EReal) :
    (⟨1, ![512]⟩ : Shape).Idx → EReal :=
  fun i => Ideal.ofBits .f32 0x3F800000#32 - Ideal.div (cntG A MX MN (i 0)) (Ideal.ofBits .f32 0x48308000#32)

end Cert.OutlierHead

end
-- ==== Proof.HostArrays.lean ====
/-
  What the kernel's region finds in its arrays, and what each window's block holds, index by index.

  Before the region the host builds three arrays from the arguments: the weight matrix transposed and padded on the
  column axis from 180736 to 184320 columns with zero; the upper thresholds padded to 184320 entries with the
  binary32 word of plus infinity, and the lower thresholds padded with the word of minus infinity, each then read
  as a one-row matrix. The region walks the 184320 columns in 45 tiles of 4096 and the 512 rows in 2 blocks of
  256: at grid point t the tile is t mod 45 and the row block is t div 45. A block's element at coordinate j inside
  the block is the array's element at (block index) × (block size) + j on each axis. The activations are not
  padded: their last tile overhangs the array by 3584 columns, and the transfer moves only the 512 columns that
  exist; inside the array a fetched block is what the transfer brought, whatever the buffer held before.
-/
import proofs.«128604_j23742579212333_2_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run
import Idealize.ShloMosaic.Lib.KernelVsHost
import Idealize.ShloMosaic.PureOps.Ideal.Laws

set_option maxRecDepth 16384

noncomputable section

namespace Cert.KernelIdeal.HandValue

open Idealize.ShloMosaic Idealize.ShloMosaic.TcCoe Idealize.SL.Sem Idealize.ShloMosaic.StableHlo
open Idealize.ShloMosaic.ValueIdx
open Cert.KernelIdeal Cert.KernelIdeal.Gen

/-! ## The two infinities -/

/-- The binary32 word of plus infinity is the top of the extended reals. -/
theorem ofBits_pinf : Ideal.ofBits .f32 0x7F800000#32 = (⊤ : EReal) := by simp [Ideal.ofBits, Ideal.ieee]

/-- The binary32 word of minus infinity is the bottom of the extended reals. -/
theorem ofBits_ninf : Ideal.ofBits .f32 0xFF800000#32 = (⊥ : EReal) := by simp [Ideal.ofBits, Ideal.ieee]

/-! ## The three arrays the host builds before the region -/

section HostBuilt

variable (m : (ℓ : Loc nD τ sig) → Buf (Elt Ideal) ℓ) (c : Dev nD)

/-- The padded transposed weights, as the host's operations of the weight argument: the transpose, padded on the
    column axis with the integer zero converted to a float. -/
theorem v1_term : (V m c main_v1 : S10x184320.Idx → EReal) =
    pad S10x184320 ![0, 0] ![0, 3584] ![0, 0]
      (transpose S10x180736 [1, 0] (m ((c : Thread nD τ).loc main_arg1)) Gen.transposes_S180736x10_S10x180736_1_0)
      (sitofp (F := Ideal) .f32 (constantI S_ 32 0#32)) Gen.pads_S10x180736_S10x184320_000_035840 Gen.h_S_ := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The padded upper thresholds as a one-row matrix, as the host's operations of the threshold argument. -/
theorem v4_term : (V m c main_v4 : S1x184320.Idx → EReal) =
    shapeCast S1x184320
      (pad S184320 ![0] ![3584] ![0] (m ((c : Thread nD τ).loc main_arg2)) (constant (F := Ideal) S_ .f32 0x7F800000#32)
        Gen.pads_S180736_S184320_035840 Gen.h_S_) Gen.shapeCasts_S184320_S1x184320 := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- The padded lower thresholds as a one-row matrix, as the host's operations of the threshold argument. -/
theorem v5_term : (V m c main_v5 : S1x184320.Idx → EReal) =
    shapeCast S1x184320
      (pad S184320 ![0] ![3584] ![0] (m ((c : Thread nD τ).loc main_arg3)) (constant (F := Ideal) S_ .f32 0xFF800000#32)
        Gen.pads_S180736_S184320_035840 Gen.h_S_) Gen.shapeCasts_S184320_S1x184320 := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results
  rfl

/-- A vector of 180736 entries padded at its end to 184320 with the value `v`: entry n is the vector's own below
    180736 and `v` from there on. -/
theorem pad_tail_apply {α : Type} (x : S180736.Idx → α) (v : S_.Idx → α) (n : Fin 184320) :
    pad S184320 ![0] ![3584] ![0] x v Gen.pads_S180736_S184320_035840 Gen.h_S_ (ix1 n)
      = if h : n.val < 180736 then x (ix1 ⟨n.val, h⟩) else v (Shape.Idx.first Gen.h_S_) := by
  split
  · next h =>
    exact pad_apply_of_inside _ _ _ x v _ _ (ix1 n) (ix1 (⟨n.val, h⟩ : Fin 180736)) (by
      intro a
      have ha : a = 0 := Subsingleton.elim _ _
      subst ha
      show n.val = 0 + n.val * (0 + 1); omega)
  · next h =>
    exact pad_apply_of_not_inside _ _ _ x v _ _ (ix1 n) (0 : Fin 1) (by
      intro hin
      have e : (n.val - 0) / (0 + 1) < 180736 := hin.2.2
      rw [Nat.sub_zero, Nat.zero_add, Nat.div_one] at e
      exact h e)

/-- The padded transposed weights at (class c, column n): the weight at (n, c) for a column of the array, zero for
    a padding column. -/
theorem v1_apply (cc : Fin 10) (n : Fin 184320) :
    (V m c main_v1 : S10x184320.Idx → EReal) (ix2 cc n)
      = (if h : n.val < 180736 then (m ((c : Thread nD τ).loc main_arg1) : S180736x10.Idx → EReal) (ix2 ⟨n.val, h⟩ cc) else 0 : EReal) := by
  rw [v1_term]
  split
  · next h =>
    refine (pad_apply_of_inside _ _ _ _ _ _ _ (ix2 cc n) (ix2 cc (⟨n.val, h⟩ : Fin 180736)) (fun a => ?_)).trans ?_
    · match a with
      | ⟨0, _⟩ => show cc.val = 0 + cc.val * (0 + 1); omega
      | ⟨1, _⟩ => show n.val = 0 + n.val * (0 + 1); omega
    · exact transpose_ix2_apply _ _ cc ⟨n.val, h⟩
  · next h =>
    refine (pad_apply_of_not_inside _ _ _ _ _ _ _ (ix2 cc n) (1 : Fin 2) (fun hin => ?_)).trans ?_
    · have e : (n.val - 0) / (0 + 1) < 180736 := hin.2.2
      rw [Nat.sub_zero, Nat.zero_add, Nat.div_one] at e
      exact h e
    · exact sitofp_zero (φ := .f32)

/-- The padded upper thresholds at column n of the one row: the threshold of a column of the array, the word of
    plus infinity for a padding column. -/
theorem v4_apply (u : Fin 1) (n : Fin 184320) :
    (V m c main_v4 : S1x184320.Idx → EReal) (ix2 u n)
      = (if h : n.val < 180736 then (m ((c : Thread nD τ).loc main_arg2) : S180736.Idx → EReal) (ix1 ⟨n.val, h⟩)
        else Ideal.ofBits .f32 0x7F800000#32 : EReal) := by
  rw [v4_term, shapeCast_a_1a_apply, pad_tail_apply]
  rfl

/-- The padded lower thresholds at column n of the one row: the threshold of a column of the array, the word of
    minus infinity for a padding column. -/
theorem v5_apply (u : Fin 1) (n : Fin 184320) :
    (V m c main_v5 : S1x184320.Idx → EReal) (ix2 u n)
      = (if h : n.val < 180736 then (m ((c : Thread nD τ).loc main_arg3) : S180736.Idx → EReal) (ix1 ⟨n.val, h⟩)
        else Ideal.ofBits .f32 0xFF800000#32 : EReal) := by
  rw [v5_term, shapeCast_a_1a_apply, pad_tail_apply]
  rfl

end HostBuilt

/-! ## The grid and the activations' window -/

/-- Grid point t is row block t div 45 and tile t mod 45. -/
theorem coords_facts : ∀ t : Fin cfg0.N, ((grid0.coords t) 0).val = t.val / 45 ∧ ((grid0.coords t) 1).val = t.val % 45 :=
  (by decide +kernel : ∀ t : Fin grid0.N, ((grid0.coords t) 0).val = t.val / 45 ∧ ((grid0.coords t) 1).val = t.val % 45)

/-- What the transfer of the activations' block moves at each grid point: all 256 rows, and of the tile's 4096
    columns those that exist in the array — the tile's columns end at the array's 180736th column or at the tile's
    own end, whichever comes first. -/
theorem xsize0_facts : ∀ t : Fin cfg0.N, win0_0.xsize (grid0.coords t) 0 = 256
    ∧ ((grid0.coords t) 1).val * 4096 + win0_0.xsize (grid0.coords t) 1 = min ((((grid0.coords t) 1).val + 1) * 4096) 180736 :=
  (by decide +kernel : ∀ t : Fin grid0.N, win0_0.xsize (grid0.coords t) 0 = 256
    ∧ ((grid0.coords t) 1).val * 4096 + win0_0.xsize (grid0.coords t) 1 = min ((((grid0.coords t) 1).val + 1) * 4096) 180736)

/-- A position of the activations' block whose column exists in the array is one the transfer moves. -/
theorem moved0 (t : Fin cfg0.N) (r : Fin 256) (j : Fin 4096) (h : ((grid0.coords t) 1).val * 4096 + j.val < 180736) :
    win0_0.moved (grid0.coords t) (ix2 r j) = true :=
  (win0_0.moved_iff (grid0.coords t) (ix2 r j)).mpr fun a => by
    have hx := xsize0_facts t
    match a with
    | ⟨0, _⟩ =>
      show r.val < win0_0.xsize (grid0.coords t) 0
      have hr := r.isLt
      omega
    | ⟨1, _⟩ =>
      show j.val < win0_0.xsize (grid0.coords t) 1
      have hj := j.isLt
      omega

/-- Inside the array the fetched block is what the transfer brought, whatever the staging buffer held before. -/
theorem fill_agree {α : Type} (t : Fin cfg0.N) (d d' : S256x4096.Idx → α) (g : (win0_0.xblock (grid0.coords t)).Idx → α)
    (r : Fin 256) (j : Fin 4096) (h : ((grid0.coords t) 1).val * 4096 + j.val < 180736) :
    win0_0.fill (grid0.coords t) d g (ix2 r j) = win0_0.fill (grid0.coords t) d' g (ix2 r j) := by
  unfold Pipeline.Window.fill
  rw [dif_pos (moved0 t r j h), dif_pos (moved0 t r j h)]

/-! ## The windows' blocks, element by element -/

/-- The grid has 90 points. -/
theorem t_lt (t : Fin cfg0.N) : t.val < 90 := lt_of_lt_of_eq t.isLt N_0

/-- The block index of every window at grid point t: the activations' block is (row block, tile), the three
    column-indexed inputs' block is (0, tile), the two outputs' block is the row block. -/
theorem idx_facts : ∀ t : Fin cfg0.N,
    win0_0.index t (0 : Fin 2) = t.val / 45 ∧ win0_0.index t (1 : Fin 2) = t.val % 45
    ∧ win0_1.index t (0 : Fin 2) = 0 ∧ win0_1.index t (1 : Fin 2) = t.val % 45
    ∧ win0_2.index t (0 : Fin 2) = 0 ∧ win0_2.index t (1 : Fin 2) = t.val % 45
    ∧ win0_3.index t (0 : Fin 2) = 0 ∧ win0_3.index t (1 : Fin 2) = t.val % 45
    ∧ win0_4.index t (0 : Fin 2) = t.val / 45 ∧ win0_4.index t (1 : Fin 2) = 0
    ∧ win0_5.index t (0 : Fin 1) = t.val / 45 :=
  (by decide +kernel : ∀ t : Fin grid0.N,
    win0_0.index t (0 : Fin 2) = t.val / 45 ∧ win0_0.index t (1 : Fin 2) = t.val % 45
    ∧ win0_1.index t (0 : Fin 2) = 0 ∧ win0_1.index t (1 : Fin 2) = t.val % 45
    ∧ win0_2.index t (0 : Fin 2) = 0 ∧ win0_2.index t (1 : Fin 2) = t.val % 45
    ∧ win0_3.index t (0 : Fin 2) = 0 ∧ win0_3.index t (1 : Fin 2) = t.val % 45
    ∧ win0_4.index t (0 : Fin 2) = t.val / 45 ∧ win0_4.index t (1 : Fin 2) = 0
    ∧ win0_5.index t (0 : Fin 1) = t.val / 45)

/-- The column of the padded arrays that position j of grid point t's tile is. -/
def col (t : Fin cfg0.N) (j : Fin 4096) : Fin 184320 :=
  ⟨t.val % 45 * 4096 + j.val, by have := j.isLt; omega⟩

/-- The row of the arrays that position r of grid point t's row block is. -/
def row (t : Fin cfg0.N) (r : Fin 256) : Fin 512 :=
  ⟨t.val / 45 * 256 + r.val, by have := t_lt t; have := r.isLt; omega⟩

@[simp] theorem col_val (t : Fin cfg0.N) (j : Fin 4096) : (col t j).val = t.val % 45 * 4096 + j.val := rfl
@[simp] theorem row_val (t : Fin cfg0.N) (r : Fin 256) : (row t r).val = t.val / 45 * 256 + r.val := rfl

section Blocks

variable (m : (ℓ : Loc nD τ sig) → Buf (Elt Ideal) ℓ) (c : Dev nD)

/-- The weights' block at grid point t holds, at (class c, position j), the padded transposed weights at
    (c, the tile's column j). -/
theorem blk1_apply (t : Fin cfg0.N) (cc : Fin 10) (j : Fin 4096) :
    (Gen.iblk m c 1 t : S10x4096.Idx → EReal) (ix2 cc j) = (V m c main_v1 : S10x184320.Idx → EReal) (ix2 cc (col t j)) := by
  show (V m c main_v1 : S10x184320.Idx → EReal) (((cfg0.win 1).blk t).view.emb (ix2 cc j)) = _
  refine congrArg (V m c main_v1 : S10x184320.Idx → EReal) (funext fun a => Fin.ext ?_)
  obtain ⟨-, -, e0, e1, -⟩ := idx_facts t
  match a with
  | ⟨0, _⟩ => show win0_1.index t (0 : Fin 2) * 10 + 1 * cc.val = cc.val; omega
  | ⟨1, _⟩ => show win0_1.index t (1 : Fin 2) * 4096 + 1 * j.val = t.val % 45 * 4096 + j.val; omega

/-- The upper thresholds' block at grid point t holds, at position j of its one row, the padded thresholds at the
    tile's column j. -/
theorem blk2_apply (t : Fin cfg0.N) (u : Fin 1) (j : Fin 4096) :
    (Gen.iblk m c 2 t : S1x4096.Idx → EReal) (ix2 u j) = (V m c main_v4 : S1x184320.Idx → EReal) (ix2 u (col t j)) := by
  show (V m c main_v4 : S1x184320.Idx → EReal) (((cfg0.win 2).blk t).view.emb (ix2 u j)) = _
  refine congrArg (V m c main_v4 : S1x184320.Idx → EReal) (funext fun a => Fin.ext ?_)
  obtain ⟨-, -, -, -, e0, e1, -⟩ := idx_facts t
  match a with
  | ⟨0, _⟩ => show win0_2.index t (0 : Fin 2) * 1 + 1 * u.val = u.val; omega
  | ⟨1, _⟩ => show win0_2.index t (1 : Fin 2) * 4096 + 1 * j.val = t.val % 45 * 4096 + j.val; omega

/-- The lower thresholds' block at grid point t holds, at position j of its one row, the padded thresholds at the
    tile's column j. -/
theorem blk3_apply (t : Fin cfg0.N) (u : Fin 1) (j : Fin 4096) :
    (Gen.iblk m c 3 t : S1x4096.Idx → EReal) (ix2 u j) = (V m c main_v5 : S1x184320.Idx → EReal) (ix2 u (col t j)) := by
  show (V m c main_v5 : S1x184320.Idx → EReal) (((cfg0.win 3).blk t).view.emb (ix2 u j)) = _
  refine congrArg (V m c main_v5 : S1x184320.Idx → EReal) (funext fun a => Fin.ext ?_)
  obtain ⟨-, -, -, -, -, -, e0, e1, -⟩ := idx_facts t
  match a with
  | ⟨0, _⟩ => show win0_3.index t (0 : Fin 2) * 1 + 1 * u.val = u.val; omega
  | ⟨1, _⟩ => show win0_3.index t (1 : Fin 2) * 4096 + 1 * j.val = t.val % 45 * 4096 + j.val; omega

/-- The activations' staging buffer after the fetch at grid point t, whatever it held before: at a position
    (r, j) whose column exists in the array it holds the activation at (the row block's row r, the tile's column j). -/
theorem blk0_apply (t : Fin cfg0.N) (d : S256x4096.Idx → EReal) (r : Fin 256) (j : Fin 4096)
    (h : t.val % 45 * 4096 + j.val < 180736) :
    win0_0.fill (grid0.coords t) d (Gen.iblk m c 0 t) (ix2 r j)
      = (m ((c : Thread nD τ).loc main_arg0) : S512x180736.Idx → EReal) (ix2 (row t r) ⟨t.val % 45 * 4096 + j.val, h⟩) := by
  have hm : win0_0.moved (grid0.coords t) (ix2 r j) = true :=
    moved0 t r j (by rw [(coords_facts t).2]; exact h)
  unfold Pipeline.Window.fill
  rw [dif_pos hm]
  show (V m c main_arg0 : S512x180736.Idx → EReal) (((cfg0.win 0).blk t).view.emb _) = _
  rw [V_main_arg0]
  refine congrArg (m ((c : Thread nD τ).loc main_arg0) : S512x180736.Idx → EReal) (funext fun a => Fin.ext ?_)
  obtain ⟨e0, e1, -⟩ := idx_facts t
  match a with
  | ⟨0, _⟩ => show win0_0.index t (0 : Fin 2) * 256 + 1 * r.val = t.val / 45 * 256 + r.val; omega
  | ⟨1, _⟩ => show win0_0.index t (1 : Fin 2) * 4096 + 1 * j.val = t.val % 45 * 4096 + j.val; omega

end Blocks

end Cert.KernelIdeal.HandValue

end
-- ==== Proof.PayloadAt.lean ====
/-
  The kernel body's arithmetic read at an index, over the extended reals.

  One grid point (a band of 256 rows, tile `k` of 4096 columns) does four things with the tile `X0` of
  activations, the tile `X1` of the transposed weights, and the two rows `X2`, `X3` of thresholds:
    * it masks the tile: entry (r, j) is kept where the global column `k * 4096 + j` is below 180736 and replaced
      by 0 elsewhere;
    * it adds to the running scores, at (r, c), the sum over the 4096 lanes j of (masked tile)(r, j) * X1 (c, j);
    * it adds to the running count of row r the sum over the lanes j of the two comparisons of the masked entry
      (r, j), strictly above `X2 (0, j)` and strictly below `X3 (0, j)`, each read as 0 or 1;
    * at the end, the confidence of row r is one minus the count divided by the number of columns, the two
      literals kept as the binary32 words the program spells.
  Over the extended reals the narrowing to bfloat16 is the identity and the matrix product is the exact sum.
-/
import proofs.«128604_j23742579212333_2_alg».proof.Proof.Spec
import proofs.«128604_j23742579212333_2_alg».proof.Proof.MaskTail
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.HandValue

open Idealize.ShloMosaic Idealize.SL.Sem Idealize.ShloMosaic.ValueIdx Cert.KernelIdeal.Gen Cert.KernelIdeal.Hand
open Cert.OutlierHead

/-! ## The masked tile -/

/-- The masked tile at (r, j): the tile's entry where the global column exists, 0 elsewhere. -/
theorem pay5_apply (i : grid0.Coords) (X0 : Vec Ideal S256x4096 .f32) (r : Fin 256) (j : Fin 4096) :
    k0_pay5 (F := Ideal) i X0 (ix2 r j) = if (i 1).val * 4096 + j.val < 180736 then X0 (ix2 r j) else (0 : EReal) := by
  have hz : (Scalar.ofBits .f32 0x00000000#32 : Ideal .f32) = (0 : EReal) := Ideal.ofBits_zero_f32
  rw [pay5_at, hz]

/-! ## The scores' step -/

/-- The contraction's dimension numbers: axis 1 of both operands is contracted, axis 0 of each is kept. -/
abbrev D := dot_S256x4096_S10x4096_S256x10_1_1_0_0_n_n

theorem lhs0 (y : S256x10.Idx) (q : D.contr.Idx) : (D.lhsIdx y q 0).val = (y 0).val := by
  unfold DotDims.lhsIdx
  rw [dif_neg (show ¬(0 : Fin S256x4096.rank) ∈ D.lhsBatch by decide), dif_pos (show (0 : Fin S256x4096.rank) ∈ D.lhsNonContracting by decide)]
  rfl
theorem lhs1 (y : S256x10.Idx) (q : D.contr.Idx) : (D.lhsIdx y q 1).val = (q ⟨0, by decide⟩).val :=
  D.lhsIdx_val_of_single rfl y q
theorem rhs0 (y : S256x10.Idx) (q : D.contr.Idx) : (D.rhsIdx y q 0).val = (y 1).val := by
  unfold DotDims.rhsIdx
  rw [dif_neg (show ¬(0 : Fin S10x4096.rank) ∈ D.rhsBatch by decide), dif_pos (show (0 : Fin S10x4096.rank) ∈ D.rhsNonContracting by decide)]
  rfl
theorem rhs1 (y : S256x10.Idx) (q : D.contr.Idx) : (D.rhsIdx y q 1).val = (q ⟨0, by decide⟩).val :=
  D.rhsIdx_val_of_single rfl y q

/-- The product of a [256, 4096] tile with a [10, 4096] tile along their lanes, into a zero accumulator, at
    (r, c): the sum over the lanes of the products. -/
theorem matmul_at (A : FVec Ideal S256x4096 .bf16) (B : FVec Ideal S10x4096 .bf16) (r : Fin 256) (cc : Fin 10) :
    FloatOps.matmul D none A B (constant S256x10 .f32 0x00000000#32) (ix2 r cc) = ∑ j : Fin 4096, A (ix2 r j) * B (ix2 cc j) := by
  rw [Ideal.matmul_constant_zero_apply, ← Equiv.sum_comp (contrEquiv1 D 4096 rfl rfl).symm]
  refine Finset.sum_congr rfl fun k _ => ?_
  have hk := contrEquiv1_symm_val D 4096 rfl rfl k
  have el : D.lhsIdx (ix2 r cc) ((contrEquiv1 D 4096 rfl rfl).symm k) = ix2 r k := funext fun a => Fin.ext (by
    match a with
    | ⟨0, _⟩ => exact lhs0 _ _
    | ⟨1, _⟩ => exact (lhs1 _ _).trans hk)
  have er : D.rhsIdx (ix2 r cc) ((contrEquiv1 D 4096 rfl rfl).symm k) = ix2 cc k := funext fun a => Fin.ext (by
    match a with
    | ⟨0, _⟩ => exact rhs0 _ _
    | ⟨1, _⟩ => exact (rhs1 _ _).trans hk)
  rw [el, er]

/-- The scores after the step, at (r, c): the scores before plus the lanes' sum of masked entry times weight. -/
theorem pay6_apply (i : grid0.Coords) (X0 : Vec Ideal S256x4096 .f32) (X1 : Vec Ideal S10x4096 .f32)
    (acc : Vec Ideal S256x10 .f32) (r : Fin 256) (cc : Fin 10) :
    k0_pay6 (F := Ideal) i X0 X1 acc (ix2 r cc)
      = acc (ix2 r cc) + ∑ j : Fin 4096, k0_pay5 (F := Ideal) i X0 (ix2 r j) * X1 (ix2 cc j) := by
  unfold k0_pay6
  rw [shapeCast_self, shapeCast_self]
  exact congrArg (acc (ix2 r cc) + ·) (matmul_at _ _ r cc)

/-! ## The count's step -/

/-- A one-bit word widened to 32 bits and read as a signed integer is the bit as a natural number. -/
theorem toInt_setWidth_bit (b : BitVec 1) : (b.setWidth 32).toInt = (b.toNat : Int) := by
  rcases BitVec.eq_zero_or_eq_one b with h | h <;> subst h <;> decide

/-- A comparison's bit, widened to a 32-bit integer and converted to a float, is the comparison read as 0 or 1. -/
theorem sitofp_cmp (p : CmpFPredicate) (a b : EReal) :
    (FloatOps.sitofp (F := Ideal) .f32 ((FloatOps.cmpf (F := Ideal) (φ := .f32) p a b).setWidth 32) : EReal) = ind p a b := by
  show (((((Ideal.cmp p a b).setWidth 32).toInt : ℝ)) : EReal) = (((Ideal.cmp p a b).toNat : ℝ) : EReal)
  rw [toInt_setWidth_bit, Int.cast_natCast]

/-- The two comparisons of a masked entry with its thresholds, added, at (r, j). -/
theorem pay7_apply (i : grid0.Coords) (X0 : Vec Ideal S256x4096 .f32) (X2 X3 : Vec Ideal S1x4096 .f32)
    (r : Fin 256) (j : Fin 4096) :
    k0_pay7 (F := Ideal) i X0 X2 X3 (ix2 r j)
      = ind .ogt (k0_pay5 (F := Ideal) i X0 (ix2 r j)) (X2 (ix2 (0 : Fin 1) j))
        + ind .olt (k0_pay5 (F := Ideal) i X0 (ix2 r j)) (X3 (ix2 (0 : Fin 1) j)) := by
  unfold k0_pay7
  rw [shapeCast_self, shapeCast_self]
  show (FloatOps.sitofp (F := Ideal) .f32 ((FloatOps.cmpf (F := Ideal) (φ := .f32) .ogt (k0_pay5 (F := Ideal) i X0 (ix2 r j))
          (broadcastTo S256x4096 X2 broadcasts_S1x4096_S256x4096 (ix2 r j))).setWidth 32) : EReal)
      + (FloatOps.sitofp (F := Ideal) .f32 ((FloatOps.cmpf (F := Ideal) (φ := .f32) .olt (k0_pay5 (F := Ideal) i X0 (ix2 r j))
          (broadcastTo S256x4096 X3 broadcasts_S1x4096_S256x4096 (ix2 r j))).setWidth 32) : EReal) = _
  rw [sitofp_cmp, sitofp_cmp, broadcastTo_1b_ab_apply, broadcastTo_1b_ab_apply]

/-- The lanes' sum of a [256, 4096] array into [256], with the zero word as accumulator, at row r. -/
theorem laneSum_at (V : FVec Ideal S256x4096 .f32) (hφ : FKind.Formats .f32)
    (hacc : (0x00000000#32 : BitVec 32) = 0x00000000#32) (r : Fin 256) :
    multiReduction (F := Ideal) .add [1] S256 V 0x00000000#32 reduces_S256x4096_S256 hφ hacc (ix1 r)
      = ∑ j : Fin 4096, V (ix2 r j) := by
  refine (Ideal.multiReduction_add_single V 0x00000000#32 reduces_S256x4096_S256 hφ hacc (ix1 r)).trans ?_
  refine Finset.sum_congr rfl fun k _ => ?_
  refine congrArg V (funext fun a => Fin.ext ?_)
  match a with
  | ⟨0, _⟩ => rfl
  | ⟨1, _⟩ => rfl

/-- The count after the step, at row r: the count before plus the lanes' sum of the two comparisons. -/
theorem pay17_apply (i : grid0.Coords) (cnt : Vec Ideal S256x1 .f32) (X0 : Vec Ideal S256x4096 .f32)
    (X2 X3 : Vec Ideal S1x4096 .f32) (r : Fin 256) :
    k0_pay1 (F := Ideal) cnt (k0_pay7 i X0 X2 X3) (ix2 r (0 : Fin 1))
      = cnt (ix2 r (0 : Fin 1)) + ∑ j : Fin 4096,
          (ind .ogt (k0_pay5 (F := Ideal) i X0 (ix2 r j)) (X2 (ix2 (0 : Fin 1) j))
            + ind .olt (k0_pay5 (F := Ideal) i X0 (ix2 r j)) (X3 (ix2 (0 : Fin 1) j))) := by
  unfold k0_pay1
  rw [shapeCast_self]
  refine congrArg (cnt (ix2 r (0 : Fin 1)) + ·) ?_
  refine (shapeCast_apply _ shapeCasts_S256_S256x1 (ix2 r (0 : Fin 1)) (ix1 r) ?_).trans ?_
  · rw [Shape.rowMajor_val_one, Shape.rowMajor_val_two]
    show r.val = r.val * 1 + 0
    omega
  · refine (laneSum_at _ _ _ r).trans ?_
    exact Finset.sum_congr rfl fun j _ => pay7_apply i X0 X2 X3 r j

/-! ## The confidence -/

/-- The confidence of row r from the final count: one minus the count over the number of columns. -/
theorem pay2_apply (v : Vec Ideal S256x1 .f32) (r : Fin 256) :
    k0_pay2 (F := Ideal) v (ix1 r)
      = Ideal.ofBits .f32 0x3F800000#32 - Ideal.div (v (ix2 r (0 : Fin 1))) (Ideal.ofBits .f32 0x48308000#32) := by
  unfold k0_pay2
  show Ideal.ofBits .f32 0x3F800000#32 - Ideal.div (shapeCast S256 v shapeCasts_S256x1_S256 (ix1 r)) (Ideal.ofBits .f32 0x48308000#32) = _
  rw [shapeCast_apply v shapeCasts_S256x1_S256 (ix1 r) (ix2 r (0 : Fin 1)) (by
    rw [Shape.rowMajor_val_one, Shape.rowMajor_val_two]
    show r.val * 1 + 0 = r.val
    omega)]

/-! ## The two scratch arrays at the first tile -/

/-- The scores start at 0 … -/
theorem pay3_eq : k0_pay3 (F := Ideal) = fun _ => (0 : EReal) := by
  unfold k0_pay3
  refine (shapeCast_self _ shapeCasts_S256x10_S256x10).trans ?_
  funext y
  exact Ideal.ofBits_zero_f32

/-- … and so do the counts. -/
theorem pay4_eq : k0_pay4 (F := Ideal) = fun _ => (0 : EReal) := by
  unfold k0_pay4
  refine (shapeCast_self _ shapeCasts_S256x1_S256x1).trans ?_
  funext y
  exact Ideal.ofBits_zero_f32

end Cert.KernelIdeal.HandValue

end
-- ==== Proof.TileSum.lean ====
/-
  Summing a sequence tile by tile.

  A sum over the first `K * 4096` naturals can be taken in `K` tiles of 4096 consecutive terms; a sum over the
  first 184320 naturals of a sequence that vanishes from 180736 on is the sum over the first 180736; and a sum
  over `Fin 180736` is the sum over the first 180736 naturals. Together: 45 tiles of 4096 terms of such a sequence
  add up to the sum of its first 180736 terms. Only commutativity and associativity of the addition are used, so
  the statements hold in every additive commutative monoid — in particular in the extended reals, where no
  finiteness is asked of the terms.
-/
import Mathlib.Algebra.BigOperators.Fin
import Mathlib.Data.Fintype.BigOperators

open scoped BigOperators

namespace Cert.OutlierHead

variable {M : Type*} [AddCommMonoid M]

/-- `K` tiles of 4096 consecutive terms add up to the first `K * 4096` terms. -/
theorem sum_tiles (f : ℕ → M) (K : ℕ) :
    ∑ k ∈ Finset.range K, ∑ j : Fin 4096, f (k * 4096 + j.val) = ∑ n ∈ Finset.range (K * 4096), f n := by
  induction K with
  | zero => rw [Finset.sum_range_zero, Nat.zero_mul, Finset.sum_range_zero]
  | succ K ih =>
    rw [Finset.sum_range_succ, ih, Nat.add_one_mul, Finset.sum_range_add,
      Fin.sum_univ_eq_sum_range (fun j => f (K * 4096 + j)) 4096]

/-- A sequence that vanishes from 180736 on has the same sum over its first 184320 terms as over its first
    180736. -/
theorem sum_drop_tail (f : ℕ → M) (h : ∀ n, 180736 ≤ n → f n = 0) :
    ∑ n ∈ Finset.range 184320, f n = ∑ n ∈ Finset.range 180736, f n := by
  have e : (184320 : ℕ) = 180736 + 3584 := rfl
  rw [e, Finset.sum_range_add, Finset.sum_eq_zero (fun x _ => h (180736 + x) (Nat.le_add_right _ _)), add_zero]

/-- A sum over `Fin 180736` is the sum over the first 180736 naturals. -/
theorem sum_fin_eq_range (f : ℕ → M) :
    ∑ n : Fin 180736, f n.val = ∑ n ∈ Finset.range 180736, f n :=
  Fin.sum_univ_eq_sum_range f 180736

/-- 45 tiles of 4096 terms of a sequence that vanishes from 180736 on add up to its first 180736 terms. -/
theorem sum_tiles_45 (f : ℕ → M) (h : ∀ n, 180736 ≤ n → f n = 0) :
    ∑ k ∈ Finset.range 45, ∑ j : Fin 4096, f (k * 4096 + j.val) = ∑ n : Fin 180736, f n.val := by
  have e : (45 : ℕ) * 4096 = 184320 := rfl
  rw [sum_tiles f 45, e, sum_drop_tail f h, sum_fin_eq_range f]

end Cert.OutlierHead
-- ==== Proof.AccumValue.lean ====
/-
  The accumulation in closed form, over the extended reals.

  The 90 grid points walk 2 row blocks of 256 rows, each in 45 tiles of 4096 columns. Within a row block the two
  accumulators start from zero at the first tile and every tile adds its 4096 summands: for the scores, at (r, c),
  the products activation × weight of the tile's columns; for the count, at row r, the two threshold comparisons of
  the tile's columns. A column from 180736 on contributes nothing: the activation is masked to 0, the padded weight
  is 0, the padded upper threshold is plus infinity and the padded lower threshold minus infinity. So after the
  tile t mod 45 the accumulators hold the sum of the summands of the tiles 0 … t mod 45, and after the last tile the
  sum over all 180736 columns: the specification's class scores, and — through one minus the count over the number
  of columns — its confidence.
-/
import proofs.«128604_j23742579212333_2_alg».proof.Proof.DataIdeal
import proofs.«128604_j23742579212333_2_alg».proof.Proof.HostArrays
import proofs.«128604_j23742579212333_2_alg».proof.Proof.PayloadAt
import proofs.«128604_j23742579212333_2_alg».proof.Proof.TileSum
import proofs.«128604_j23742579212333_2_alg».proof.Proof.Spec

noncomputable section

open scoped BigOperators

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand Cert.OutlierHead

/-! ## The two summands as functions of the global column -/

/-- The score summand of global row R, class cc at global column n: activation times weight where the column
    exists, 0 from column 180736 on. -/
def fP (A : S512x180736.Idx → EReal) (W : S180736x10.Idx → EReal) (R : Fin 512) (cc : Fin 10) (n : ℕ) : EReal :=
  if h : n < 180736 then A (ix2 R ⟨n, h⟩) * W (ix2 ⟨n, h⟩ cc) else 0

/-- The count summand of global row R at global column n: the two comparisons of the activation with the column's
    thresholds where the column exists, 0 from column 180736 on. -/
def fC (A : S512x180736.Idx → EReal) (MX MN : S180736.Idx → EReal) (R : Fin 512) (n : ℕ) : EReal :=
  if h : n < 180736 then ind .ogt (A (ix2 R ⟨n, h⟩)) (MX (ix1 ⟨n, h⟩)) + ind .olt (A (ix2 R ⟨n, h⟩)) (MN (ix1 ⟨n, h⟩)) else 0

theorem fP_tail (A : S512x180736.Idx → EReal) (W : S180736x10.Idx → EReal) (R : Fin 512) (cc : Fin 10) (n : ℕ)
    (h : 180736 ≤ n) : fP A W R cc n = 0 := dif_neg (Nat.not_lt.mpr h)
theorem fC_tail (A : S512x180736.Idx → EReal) (MX MN : S180736.Idx → EReal) (R : Fin 512) (n : ℕ)
    (h : 180736 ≤ n) : fC A MX MN R n = 0 := dif_neg (Nat.not_lt.mpr h)

section Run

variable (m : (ℓ : Loc nD τ sig) → Buf (Elt Ideal) ℓ) (c : Dev nD)

/-- The four arguments as launched. -/
abbrev argA : S512x180736.Idx → EReal := m ((c : Thread nD τ).loc main_arg0)
abbrev argW : S180736x10.Idx → EReal := m ((c : Thread nD τ).loc main_arg1)
abbrev argMX : S180736.Idx → EReal := m ((c : Thread nD τ).loc main_arg2)
abbrev argMN : S180736.Idx → EReal := m ((c : Thread nD τ).loc main_arg3)

theorem point_lt (t : Fin cfg0.N) : t.val < 90 := lt_of_lt_of_eq t.isLt (show cfg0.N = 90 from N_0)

/-- The global row of row r of the block of grid point t: row block t div 45, 256 rows a block. -/
abbrev rowOf (t : Fin cfg0.N) (r : Fin 256) : Fin 512 := row t r

theorem rowOf_val (t : Fin cfg0.N) (r : Fin 256) : (rowOf t r).val = (t.val / 45) * 256 + r.val := rfl

/-! ## What the four blocks hold, in terms of the arguments -/

/-- The activations' block as the arithmetic sees it, at a position whose column exists: the activation at the
    block's row and the tile's column. -/
theorem ablk_in (t : Fin cfg0.N) (r : Fin 256) (j : Fin 4096) (h : (t.val % 45) * 4096 + j.val < 180736) :
    (ablk m c t : S256x4096.Idx → EReal) (ix2 r j) = argA m c (ix2 (rowOf t r) ⟨(t.val % 45) * 4096 + j.val, h⟩) := by
  unfold ablk
  exact blk0_apply m c t _ r j h

/-- The weights' block at (class, position j): the weight of the tile's column j where it exists, 0 past the end. -/
theorem wblk_at (t : Fin cfg0.N) (cc : Fin 10) (j : Fin 4096) :
    (wblk m c t : S10x4096.Idx → EReal) (ix2 cc j)
      = if h : (t.val % 45) * 4096 + j.val < 180736 then argW m c (ix2 ⟨(t.val % 45) * 4096 + j.val, h⟩ cc) else 0 := by
  unfold wblk
  exact (blk1_apply m c t cc j).trans (v1_apply m c cc (col t j))

/-- The upper thresholds' block at position j: the threshold of the tile's column j where it exists, plus infinity
    past the end. -/
theorem mxblk_at (t : Fin cfg0.N) (j : Fin 4096) :
    (mxblk m c t : S1x4096.Idx → EReal) (ix2 (0 : Fin 1) j)
      = if h : (t.val % 45) * 4096 + j.val < 180736 then argMX m c (ix1 ⟨(t.val % 45) * 4096 + j.val, h⟩) else (⊤ : EReal) := by
  unfold mxblk
  refine ((blk2_apply m c t 0 j).trans (v4_apply m c 0 (col t j))).trans ?_
  rw [ofBits_pinf]
  rfl

/-- The lower thresholds' block at position j: the threshold of the tile's column j where it exists, minus infinity
    past the end. -/
theorem mnblk_at (t : Fin cfg0.N) (j : Fin 4096) :
    (mnblk m c t : S1x4096.Idx → EReal) (ix2 (0 : Fin 1) j)
      = if h : (t.val % 45) * 4096 + j.val < 180736 then argMN m c (ix1 ⟨(t.val % 45) * 4096 + j.val, h⟩) else (⊥ : EReal) := by
  unfold mnblk
  refine ((blk3_apply m c t 0 j).trans (v5_apply m c 0 (col t j))).trans ?_
  rw [ofBits_ninf]
  rfl

/-! ## One tile -/

/-- Zero is not above plus infinity, and not below minus infinity: a padding column counts nothing. -/
theorem ind_pad : ind .ogt (0 : EReal) ⊤ + ind .olt (0 : EReal) ⊥ = 0 := by
  simp [ind, Ideal.cmp]

/-- The scores after the step at point t, at (r, cc): the scores before plus the tile's 4096 summands. -/
theorem acc_step (t : Fin cfg0.N) (s : Vec Ideal S256x10 .f32 × Vec Ideal S256x1 .f32) (r : Fin 256) (cc : Fin 10) :
    (stepAt m c t s).1 (ix2 r cc)
      = s.1 (ix2 r cc) + ∑ j : Fin 4096, fP (argA m c) (argW m c) (rowOf t r) cc ((t.val % 45) * 4096 + j.val) := by
  show k0_pay6 (F := Ideal) (grid0.coords t) (ablk m c t) (wblk m c t) s.1 (ix2 r cc) = _
  rw [pay6_apply]
  refine congrArg (s.1 (ix2 r cc) + ·) (Finset.sum_congr rfl fun j _ => ?_)
  rw [pay5_apply, tileOf t]
  unfold fP
  by_cases h : (t.val % 45) * 4096 + j.val < 180736
  · rw [if_pos h, dif_pos h, ablk_in m c t r j h, wblk_at, dif_pos h]
  · rw [if_neg h, dif_neg h, zero_mul]

/-- The count after the step at point t, at row r: the count before plus the tile's 4096 summands. -/
theorem cnt_step (t : Fin cfg0.N) (s : Vec Ideal S256x10 .f32 × Vec Ideal S256x1 .f32) (r : Fin 256) :
    (stepAt m c t s).2 (ix2 r (0 : Fin 1))
      = s.2 (ix2 r (0 : Fin 1)) + ∑ j : Fin 4096, fC (argA m c) (argMX m c) (argMN m c) (rowOf t r) ((t.val % 45) * 4096 + j.val) := by
  show k0_pay1 (F := Ideal) s.2 (k0_pay7 (grid0.coords t) (ablk m c t) (mxblk m c t) (mnblk m c t)) (ix2 r (0 : Fin 1)) = _
  rw [pay17_apply]
  refine congrArg (s.2 (ix2 r (0 : Fin 1)) + ·) (Finset.sum_congr rfl fun j _ => ?_)
  rw [pay5_apply, tileOf t, mxblk_at, mnblk_at]
  unfold fC
  by_cases h : (t.val % 45) * 4096 + j.val < 180736
  · rw [if_pos h, dif_pos h, dif_pos h, dif_pos h, ablk_in m c t r j h]
  · rw [if_neg h, dif_neg h, dif_neg h, dif_neg h, ind_pad]

/-! ## The accumulators in closed form -/

/-- Within a row block the global row does not change from a point to the next. -/
theorem rowOf_pred (t : Fin cfg0.N) (h : ¬t.val % 45 = 0) (r : Fin 256) :
    rowOf ⟨t.val - 1, Nat.lt_of_le_of_lt (Nat.sub_le _ _) t.isLt⟩ r = rowOf t r :=
  Fin.ext (by simp only [rowOf_val]; have := point_lt t; omega)

/-- After the body at point t the scores hold, at (r, cc), the summands of the tiles 0 … t mod 45 of the row block. -/
theorem acc_closed (r : Fin 256) (cc : Fin 10) : ∀ (n : ℕ) (hn : n < cfg0.N),
    (stAt m c n hn).1 (ix2 r cc)
      = ∑ k ∈ Finset.range (n % 45 + 1), ∑ j : Fin 4096, fP (argA m c) (argW m c) (rowOf ⟨n, hn⟩ r) cc (k * 4096 + j.val) := by
  intro n
  induction n with
  | zero =>
    intro hn
    rw [stAt_first m c ⟨0, hn⟩ rfl, acc_step, pay3_eq, Finset.sum_range_one]
    show (0 : EReal) + _ = _
    rw [zero_add]
    rfl
  | succ n ih =>
    intro hn
    by_cases h0 : (n + 1) % 45 = 0
    · rw [stAt_first m c ⟨n + 1, hn⟩ h0, acc_step, pay3_eq]
      show (0 : EReal) + _ = _
      rw [zero_add, show (n + 1) % 45 + 1 = 1 from by omega, Finset.sum_range_one]
      show _ = ∑ j : Fin 4096, fP _ _ _ cc (0 * 4096 + j.val)
      rw [show ((⟨n + 1, hn⟩ : Fin cfg0.N).val) % 45 = 0 from h0]
    · rw [stAt_next m c ⟨n + 1, hn⟩ h0, acc_step]
      show (stAt m c n _).1 (ix2 r cc) + _ = _
      have hrow : rowOf ⟨n, Nat.lt_of_succ_lt hn⟩ r = rowOf ⟨n + 1, hn⟩ r := rowOf_pred ⟨n + 1, hn⟩ h0 r
      have e1 : (n + 1) % 45 = n % 45 + 1 := by omega
      rw [ih, hrow]
      show _ + ∑ j : Fin 4096, fP _ _ _ cc ((n + 1) % 45 * 4096 + j.val) = ∑ k ∈ Finset.range ((n + 1) % 45 + 1), _
      rw [e1]
      exact (Finset.sum_range_succ _ _).symm

/-- After the body at point t the count holds, at row r, the summands of the tiles 0 … t mod 45 of the row block. -/
theorem cnt_closed (r : Fin 256) : ∀ (n : ℕ) (hn : n < cfg0.N),
    (stAt m c n hn).2 (ix2 r (0 : Fin 1))
      = ∑ k ∈ Finset.range (n % 45 + 1), ∑ j : Fin 4096, fC (argA m c) (argMX m c) (argMN m c) (rowOf ⟨n, hn⟩ r) (k * 4096 + j.val) := by
  intro n
  induction n with
  | zero =>
    intro hn
    rw [stAt_first m c ⟨0, hn⟩ rfl, cnt_step, pay4_eq, Finset.sum_range_one]
    show (0 : EReal) + _ = _
    rw [zero_add]
    rfl
  | succ n ih =>
    intro hn
    by_cases h0 : (n + 1) % 45 = 0
    · rw [stAt_first m c ⟨n + 1, hn⟩ h0, cnt_step, pay4_eq]
      show (0 : EReal) + _ = _
      rw [zero_add, show (n + 1) % 45 + 1 = 1 from by omega, Finset.sum_range_one]
      show _ = ∑ j : Fin 4096, fC _ _ _ _ (0 * 4096 + j.val)
      rw [show ((⟨n + 1, hn⟩ : Fin cfg0.N).val) % 45 = 0 from h0]
    · rw [stAt_next m c ⟨n + 1, hn⟩ h0, cnt_step]
      show (stAt m c n _).2 (ix2 r (0 : Fin 1)) + _ = _
      have hrow : rowOf ⟨n, Nat.lt_of_succ_lt hn⟩ r = rowOf ⟨n + 1, hn⟩ r := rowOf_pred ⟨n + 1, hn⟩ h0 r
      have e1 : (n + 1) % 45 = n % 45 + 1 := by omega
      rw [ih, hrow]
      show _ + ∑ j : Fin 4096, fC _ _ _ _ ((n + 1) % 45 * 4096 + j.val) = ∑ k ∈ Finset.range ((n + 1) % 45 + 1), _
      rw [e1]
      exact (Finset.sum_range_succ _ _).symm

/-! ## The two results at a last tile -/

/-- At the last tile of a row block the scores are the specification's class scores of the block's rows. -/
theorem final_pred (t : Fin cfg0.N) (h : t.val % 45 = 44) (r : Fin 256) (cc : Fin 10) :
    (stAt m c t.val t.isLt).1 (ix2 r cc) = predG (argA m c) (argW m c) (ix2 (rowOf t r) cc) := by
  rw [acc_closed m c r cc t.val t.isLt, h, sum_tiles_45 _ (fP_tail _ _ _ _)]
  unfold predG fP
  exact Finset.sum_congr rfl fun n _ => by rw [dif_pos n.isLt]

/-- At the last tile of a row block the confidence computed from the count is the specification's confidence of the
    block's rows. -/
theorem final_cfd (t : Fin cfg0.N) (h : t.val % 45 = 44) (r : Fin 256) :
    k0_pay2 (F := Ideal) (stAt m c t.val t.isLt).2 (ix1 r) = cfdG (argA m c) (argMX m c) (argMN m c) (ix1 (rowOf t r)) := by
  rw [pay2_apply, cnt_closed m c r t.val t.isLt, h, sum_tiles_45 _ (fC_tail _ _ _ _)]
  unfold cfdG
  refine congrArg (fun x => Ideal.ofBits .f32 0x3F800000#32 - Ideal.div x (Ideal.ofBits .f32 0x48308000#32)) ?_
  show _ = cntG (argA m c) (argMX m c) (argMN m c) (rowOf t r)
  unfold cntG fC
  rw [← Finset.sum_add_distrib]
  exact Finset.sum_congr rfl fun n _ => by rw [dif_pos n.isLt]

end Run

end Cert.KernelIdeal.HandValue

end
-- ==== Proof.ArrayValue.lean ====
import proofs.«128604_j23742579212333_2_alg».proof.Proof.DataIdeal
import proofs.«128604_j23742579212333_2_alg».proof.Proof.Spec
import Idealize.ShloMosaic.Lib.Pipeline.Value
import Idealize.ShloMosaic.Lib.ValueIdx
import proofs.«128604_j23742579212333_2_alg».proof.Proof.AccumValue
set_option maxRecDepth 16384

noncomputable section

namespace Cert.KernelIdeal.HandValue

open Cert.KernelIdeal Cert.KernelIdeal.Gen Cert.KernelIdeal.Hand Cert.OutlierHead
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## From the last tiles' blocks to the two result arrays

Each result window is written back exactly at the last tile of a row block (points 44 and 89), block `t / 45` of the
array: rows 0‥255 and 256‥511. What is written back there is that block of the specification; the two blocks cover
the array; so each result array ends holding the specification. -/

/-- The score window's block index at a point: the row block, and column block 0. -/
theorem idx4 : ∀ t : Fin cfg0.N, win0_4.index t (0 : Fin 2) = t.val / 45 ∧ win0_4.index t (1 : Fin 2) = 0 :=
  (by decide +kernel : ∀ t : Fin grid0.N, win0_4.index t (0 : Fin 2) = t.val / 45 ∧ win0_4.index t (1 : Fin 2) = 0)
/-- The confidence window's block index at a point: the row block. -/
theorem idx5 : ∀ t : Fin cfg0.N, win0_5.index t (0 : Fin 1) = t.val / 45 :=
  (by decide +kernel : ∀ t : Fin grid0.N, win0_5.index t (0 : Fin 1) = t.val / 45)

/-- What a last tile writes back of the score window is its block of the specification's scores. -/
theorem flushed4_eq (c : Dev nD) (t : Fin cfg0.N) (hf : (cfg0.win 4).flush t = true) :
    (dats m 0 c).flushed 4 t = ((cfg0.win 4).blk t).view.read (Elt Ideal)
      (predG (m ((c : Thread nD τ).loc main_arg0)) (m ((c : Thread nD τ).loc main_arg1))) := by
  have h44 := (flush0_4 t).mp hf
  have hN : t.val < 90 := lt_of_lt_of_eq t.isLt (show cfg0.N = 90 from N_0)
  show (cfg0.win 4).cut (grid0.coords t) ((dats m 0 c).after 4 t) = _
  rw [after4]
  funext y
  obtain ⟨r, cc, rfl⟩ : ∃ (r : Fin 256) (cc : Fin 10), y = ix2 r cc := ⟨y 0, y 1, eq_ix2 y⟩
  have hidx : (ix2 (rowOf t r) cc : S512x10.Idx) = ((cfg0.win 4).blk t).view.emb (ix2 r cc) := by
    funext a
    apply Fin.ext
    obtain ⟨e0, e1⟩ := idx4 t
    match a with
    | ⟨0, _⟩ => show (t.val / 45) * 256 + r.val = win0_4.index t (0 : Fin 2) * 256 + 1 * r.val; rw [e0]; omega
    | ⟨1, _⟩ => show cc.val = win0_4.index t (1 : Fin 2) * 10 + 1 * cc.val; rw [e1]; omega
  rw [View.read_apply]
  show (stAt m c t.val t.isLt).1 (ix2 r cc) = _
  rw [final_pred m c t h44 r cc, hidx]
  exact (cast_eq _ _).symm

/-- What a last tile writes back of the confidence window is its block of the specification's confidences. -/
theorem flushed5_eq (c : Dev nD) (t : Fin cfg0.N) (hf : (cfg0.win 5).flush t = true) :
    (dats m 0 c).flushed 5 t = ((cfg0.win 5).blk t).view.read (Elt Ideal)
      (cfdG (m ((c : Thread nD τ).loc main_arg0)) (m ((c : Thread nD τ).loc main_arg2)) (m ((c : Thread nD τ).loc main_arg3))) := by
  have h44 := (flush0_5 t).mp hf
  have hN : t.val < 90 := lt_of_lt_of_eq t.isLt (show cfg0.N = 90 from N_0)
  show (cfg0.win 5).cut (grid0.coords t) ((dats m 0 c).after 5 t) = _
  rw [after5]
  funext y
  obtain ⟨r, rfl⟩ : ∃ (r : Fin 256), y = ix1 r := ⟨y 0, eq_ix1 y⟩
  have hidx : (ix1 (rowOf t r) : S512.Idx) = ((cfg0.win 5).blk t).view.emb (ix1 r) := by
    funext a
    apply Fin.ext
    have e0 := idx5 t
    match a with
    | ⟨0, _⟩ => show (t.val / 45) * 256 + r.val = win0_5.index t (0 : Fin 1) * 256 + 1 * r.val; rw [e0]; omega
  rw [View.read_apply]
  show k0_pay2 (F := Ideal) (stAt m c t.val t.isLt).2 (ix1 r) = _
  rw [final_cfd m c t h44 r, hidx]
  exact (cast_eq _ _).symm

/-- An index of the score array is in point `t`'s block iff each coordinate is in the block's range on its axis. -/
theorem mem_blk4 (t : Fin cfg0.N) (i : S512x10.Idx) :
    i ∈ ((cfg0.win 4).blk t).view.set ↔ ∀ a : Fin 2, win0_4.index t a * S256x10.size a ≤ (i a).val ∧ (i a).val < win0_4.index t a * S256x10.size a + S256x10.size a := by
  show i ∈ ((View.whole main_v6_0).slice (win0_4.rect t)).set ↔ _
  rw [View.set_slice_whole, Rect.mem_set_unit]
  exact Iff.rfl
theorem mem_blk5 (t : Fin cfg0.N) (i : S512.Idx) :
    i ∈ ((cfg0.win 5).blk t).view.set ↔ ∀ a : Fin 1, win0_5.index t a * S256.size a ≤ (i a).val ∧ (i a).val < win0_5.index t a * S256.size a + S256.size a := by
  show i ∈ ((View.whole main_v6_1).slice (win0_5.rect t)).set ↔ _
  rw [View.set_slice_whole, Rect.mem_set_unit]
  exact Iff.rfl

/-- Every row of the score array is in the block some last tile writes back. -/
theorem cover4 (i : S512x10.Idx) : ∃ t : Fin cfg0.N, (cfg0.win 4).flush t = true ∧ i ∈ ((cfg0.win 4).blk t).view.set := by
  have hi0 : (i 0).val < 512 := (i 0).isLt
  have hi1 : (i 1).val < 10 := (i 1).isLt
  obtain ⟨t, ht⟩ : ∃ t : Fin cfg0.N, t.val = (i 0).val / 256 * 45 + 44 :=
    ⟨⟨(i 0).val / 256 * 45 + 44, by have : cfg0.N = 90 := N_0; omega⟩, rfl⟩
  refine ⟨t, (flush0_4 t).mpr (by omega), ?_⟩
  rw [mem_blk4]
  obtain ⟨e0, e1⟩ := idx4 t
  intro a
  match a with
  | ⟨0, _⟩ => show win0_4.index t (0 : Fin 2) * 256 ≤ (i 0).val ∧ (i 0).val < win0_4.index t (0 : Fin 2) * 256 + 256; rw [e0]; omega
  | ⟨1, _⟩ => show win0_4.index t (1 : Fin 2) * 10 ≤ (i 1).val ∧ (i 1).val < win0_4.index t (1 : Fin 2) * 10 + 10; rw [e1]; omega
theorem cover5 (i : S512.Idx) : ∃ t : Fin cfg0.N, (cfg0.win 5).flush t = true ∧ i ∈ ((cfg0.win 5).blk t).view.set := by
  have hi0 : (i 0).val < 512 := (i 0).isLt
  obtain ⟨t, ht⟩ : ∃ t : Fin cfg0.N, t.val = (i 0).val / 256 * 45 + 44 :=
    ⟨⟨(i 0).val / 256 * 45 + 44, by have : cfg0.N = 90 := N_0; omega⟩, rfl⟩
  refine ⟨t, (flush0_5 t).mpr (by omega), ?_⟩
  rw [mem_blk5]
  have e0 := idx5 t
  intro a
  match a with
  | ⟨0, _⟩ => show win0_5.index t (0 : Fin 1) * 256 ≤ (i 0).val ∧ (i 0).val < win0_5.index t (0 : Fin 1) * 256 + 256; rw [e0]; omega

/-- The score array after the run is the specification's scores of the argument arrays; -/
theorem final4 (c : Dev nD) : (dats m 0 c).arrAt 4 cfg0.N
    = predG (m ((c : Thread nD τ).loc main_arg0)) (m ((c : Thread nD τ).loc main_arg1)) :=
  (dats m 0 c).arrAt_eq_of_cover 4 _ (fun t hf => flushed4_eq m c t hf) cover4
/-- and the confidence array its confidences. -/
theorem final5 (c : Dev nD) : (dats m 0 c).arrAt 5 cfg0.N
    = cfdG (m ((c : Thread nD τ).loc main_arg0)) (m ((c : Thread nD τ).loc main_arg2)) (m ((c : Thread nD τ).loc main_arg3)) :=
  (dats m 0 c).arrAt_eq_of_cover 5 _ (fun t hf => flushed5_eq m c t hf) cover5

/-- The idealized kernel's run, read: the two results at the specification of the argument arrays, the arguments
    unchanged. -/
theorem run : θ_run defs (onTc (τ := τ) (main (F := Ideal))) ⟨m, fun _ => 0, ρ⟩ (fun r => ∀ c : Dev nD,
      r.2.mem ((c.tc : Thread nD τ).loc main_v6_0) = predG (m ((c.tc : Thread nD τ).loc main_arg0)) (m ((c.tc : Thread nD τ).loc main_arg1))
      ∧ r.2.mem ((c.tc : Thread nD τ).loc main_v6_1) = cfdG (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final4 m c), ((h c).1 5).trans (final5 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main (F := Ideal) m ρ)

end Cert.KernelIdeal.HandValue

end
-- ==== Proof.RefSide.lean ====
/-
  The reference program computes the specification.

  The reference forms the class scores by one contraction over the 180736 columns, and the confidence of a row by
  comparing every activation of the row with the two threshold vectors (each broadcast along the rows), reading each
  one-bit comparison as the number 0 or 1, summing each of the two families of 0/1 values over the columns from the
  initial value zero, adding the two sums, dividing by the column count and subtracting the quotient from one.
  Read at an index, each of its two results is literally the corresponding function of the specification: the
  contraction is the specification's sum of products, and each sum of 0/1 values is the specification's sum of
  comparison indicators (the initial value zero is the neutral element of the addition of extended reals).
  Nothing here depends on the size of the inputs being finite: only `0 + x = x` is used.
-/
import proofs.«128604_j23742579212333_2_alg».proof.Proof.Spec
import proofs.«128604_j23742579212333_2_alg».proof.Defs
import proofs.«128604_j23742579212333_2_alg».proof.Proof.Gen.Pre_finite_inputs
import proofs.«128604_j23742579212333_2_alg».proof.Proof.Gen.ReferenceIdeal.Run
import proofs.«128604_j23742579212333_2_alg».proof.Proof.Gen.ReferenceIdeal.Read

noncomputable section

open scoped BigOperators

namespace Cert.OutlierHead.Ref

open Idealize.ShloMosaic Idealize.ShloMosaic.TcCoe Idealize.SL.Sem Idealize.ShloMosaic.StableHlo
open Idealize.ShloMosaic.ValueIdx
open Cert.ReferenceIdeal Cert.ReferenceIdeal.Gen Cert.ReferenceIdeal.Read

/-! ## The index functions of the reference's stages are the coordinate constructors -/

/-- In the contraction for entry (n, c), term k reads the activations at (n, k). -/
theorem lidx_eq (n : Fin 512) (c : Fin 10) (k : Fin 180736) : lidx_main_v0 (ix2 n c) k = ix2 n k :=
  funext fun a => Fin.ext (by match a with | ⟨0, _⟩ => rfl | ⟨1, _⟩ => rfl)

/-- In the contraction for entry (n, c), term k reads the weights at (k, c). -/
theorem ridx_eq (n : Fin 512) (c : Fin 10) (k : Fin 180736) : ridx_main_v0 (ix2 n c) k = ix2 k c :=
  funext fun a => Fin.ext (by match a with | ⟨0, _⟩ => rfl | ⟨1, _⟩ => rfl)

/-- Term k of the first row sum for row n reads position (n, k). -/
theorem idx5_eq (n : Fin 512) (k : Fin 180736) : idx_main_v5 (ix1 n) k = ix2 n k :=
  funext fun a => Fin.ext (by match a with | ⟨0, _⟩ => rfl | ⟨1, _⟩ => rfl)

/-- Term k of the second row sum for row n reads position (n, k). -/
theorem idx10_eq (n : Fin 512) (k : Fin 180736) : idx_main_v10 (ix1 n) k = ix2 n k :=
  funext fun a => Fin.ext (by match a with | ⟨0, _⟩ => rfl | ⟨1, _⟩ => rfl)

/-- The upper thresholds, broadcast along the rows, are read at position (n, k) from entry k. -/
theorem idx_max_eq (n : Fin 512) (k : Fin 180736) : idx_main_v1 (idx_main_v2 (ix2 n k)) = ix1 k :=
  funext fun a => Fin.ext (by match a with | ⟨0, _⟩ => rfl)

/-- The lower thresholds, broadcast along the rows, are read at position (n, k) from entry k. -/
theorem idx_min_eq (n : Fin 512) (k : Fin 180736) : idx_main_v6 (idx_main_v7 (ix2 n k)) = ix1 k :=
  funext fun a => Fin.ext (by match a with | ⟨0, _⟩ => rfl)

/-! ## The two results, read at an index -/

/-- The contraction is the specification's class scores. -/
theorem pred_eq (a0 : (⟨S512x180736, .f32⟩ : BufTy).Contents (Elt Ideal)) (a1 : (⟨S180736x10, .f32⟩ : BufTy).Contents (Elt Ideal)) :
    val_main_v0 (F := Ideal) a0 a1 = predG a0 a1 := by
  funext i
  obtain ⟨n, c, rfl⟩ : ∃ (n : Fin 512) (c : Fin 10), i = ix2 n c := ⟨i 0, i 1, eq_ix2 i⟩
  rw [val_main_v0_apply]
  simp only [lidx_eq, ridx_eq]
  rfl

/-- Term k of the first row sum of row n: the indicator that the activation at (n, k) lies strictly above the
    upper threshold k. -/
theorem above_term (a0 : (⟨S512x180736, .f32⟩ : BufTy).Contents (Elt Ideal)) (a2 : (⟨S180736, .f32⟩ : BufTy).Contents (Elt Ideal))
    (n : Fin 512) (k : Fin 180736) :
    val_main_v4 (F := Ideal) a0 a2 (idx_main_v5 (ix1 n) k) = ind .ogt (a0 (ix2 n k)) (a2 (ix1 k)) := by
  rw [idx5_eq, val_main_v4_apply, val_main_v3_apply, val_main_v2_apply, val_main_v1_apply, idx_max_eq]
  rfl

/-- Term k of the second row sum of row n: the indicator that the activation at (n, k) lies strictly below the
    lower threshold k. -/
theorem below_term (a0 : (⟨S512x180736, .f32⟩ : BufTy).Contents (Elt Ideal)) (a3 : (⟨S180736, .f32⟩ : BufTy).Contents (Elt Ideal))
    (n : Fin 512) (k : Fin 180736) :
    val_main_v9 (F := Ideal) a0 a3 (idx_main_v10 (ix1 n) k) = ind .olt (a0 (ix2 n k)) (a3 (ix1 k)) := by
  rw [idx10_eq, val_main_v9_apply, val_main_v8_apply, val_main_v7_apply, val_main_v6_apply, idx_min_eq]
  rfl

/-- One minus the quotient of the two row sums' total by the column count is the specification's confidence. -/
theorem cfd_eq (a0 : (⟨S512x180736, .f32⟩ : BufTy).Contents (Elt Ideal)) (a2 a3 : (⟨S180736, .f32⟩ : BufTy).Contents (Elt Ideal)) :
    val_main_v15 (F := Ideal) a0 a2 a3 = cfdG a0 a2 a3 := by
  funext i
  obtain ⟨n, rfl⟩ : ∃ n : Fin 512, i = ix1 n := ⟨i 0, eq_ix1 i⟩
  rw [val_main_v15_apply, val_main_v14_apply, val_main_cst_2_apply, val_main_v13_apply, val_main_v12_apply,
    val_main_cst_1_apply, val_main_v11_apply, val_main_v5_apply, val_main_v10_apply, val_main_cst_apply,
    val_main_cst_0_apply]
  simp only [above_term, below_term, Ideal.ofBits_def, Ideal.subf_def, Ideal.hostDivf_def, Ideal.addf_def,
    Ideal.ofBits_zero_f32, zero_add]
  rfl

/-! ## The reference's run -/

/-- From any memory, every weakly fair execution of the reference terminates with the class scores and the confidences
    of the specification, computed from the argument arrays as the run found them, in its two result arrays, and with
    the four argument arrays unchanged. -/
theorem run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v0) = predG (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v15) = cfdG (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono
    (fun _ h c => ⟨(h c).1.trans ((val_main_v0_eq _ _).trans (pred_eq _ _)),
      (h c).2.1.trans ((val_main_v15_eq _ _ _).trans (cfd_eq _ _ _)), (h c).2.2⟩)
    (Cert.ReferenceIdeal.Value.run (F := Ideal) m' g')

/-- The reference runs and leaves its four argument arrays unchanged: its run with the two results dropped. -/
theorem frame : Cert.frame_ReferenceIdeal := fun m ρ _ =>
  (θ_run Cert.ReferenceIdeal.defs _ _).mono (fun _ h c => (h c).2.2) (Cert.ReferenceIdeal.Value.run (F := Ideal) m ρ)

end Cert.OutlierHead.Ref

end
-- ==== Proof.lean ====
/-
  A fused classifier head and outlier count, against its plain reference, over the extended reals.

  For activations `A` (512 × 180736), weights `W` (180736 × 10) and two threshold vectors of length 180736 the
  reference computes the class scores `A · W` and, per row, the confidence: one minus the number of columns whose
  activation lies above the upper threshold or below the lower one, divided by 180736. The kernel walks the columns in
  45 tiles of 4096 (the last one overhanging the array by 3584 columns) for each of two blocks of 256 rows: at each
  tile it masks the activations past column 180736 to zero, adds the tile's product with the zero-padded transposed
  weights to a score accumulator and the tile's count against the thresholds (padded with +∞ above and −∞ below, so
  that a masked zero never counts) to a counter; at a block's first tile both accumulators start from zero, at its last
  the scores and one minus the counter over 180736 are written out.

  Both kernel programs (the word-level one and its idealization, which here is the same text read over the extended
  reals: the ideal pass rewrote nothing) run to the end, fault nowhere and leave their arguments unchanged: one proof,
  generic in the float instance, of the body's three cases (first, middle and last tile) over the accumulators' state
  point by point, instantiated twice. At the ideal instance a sum over the 45 tiles of the masked, padded columns is
  the sum over the 180736 columns (sums on the extended reals commute and associate; no finiteness is needed), the
  per-column sum of the two comparisons is the sum of their two sums, and the two literals of the confidence are the
  same words on both sides: the two programs compute one function of the arguments.
-/
import proofs.«128604_j23742579212333_2_alg».proof.Defs
import proofs.«128604_j23742579212333_2_alg».proof.Proof.Gen.Kernel
import proofs.«128604_j23742579212333_2_alg».proof.Proof.Gen.KernelIdeal
import proofs.«128604_j23742579212333_2_alg».proof.Proof.Gen.ReferenceIdeal
import proofs.«128604_j23742579212333_2_alg».proof.Proof.Gen.Pre_finite_inputs
import proofs.«128604_j23742579212333_2_alg».proof.Proof.Gen.ReferenceIdeal.Run
import proofs.«128604_j23742579212333_2_alg».proof.Proof.Gen.ReferenceIdeal.Read
import proofs.«128604_j23742579212333_2_alg».proof.Proof.DataBits
import proofs.«128604_j23742579212333_2_alg».proof.Proof.DataIdeal
import proofs.«128604_j23742579212333_2_alg».proof.Proof.ArrayValue
import proofs.«128604_j23742579212333_2_alg».proof.Proof.RefSide
import Idealize.ShloMosaic.Adequacy
import Idealize.ShloMosaic.Init

noncomputable section

namespace Cert.Proof

open Idealize.ShloMosaic Idealize.SL.Sem Cert.OutlierHead

/-- The word-level kernel runs and leaves its arguments unchanged. -/
theorem frame_k : Cert.frame_Kernel := fun m ρ _ => Cert.Kernel.Hand.frame (F := Bits) m ρ
/-- So does its idealization. -/
theorem frame_ki : Cert.frame_KernelIdeal := fun m ρ _ => Cert.KernelIdeal.Hand.frame (F := Ideal) m ρ
/-- And the reference. -/
theorem frame_ri : Cert.frame_ReferenceIdeal := Cert.OutlierHead.Ref.frame
/-- The ideal pass rewrote no operation: nothing to preserve. -/
theorem preserves : Cert.preserves_Kernel_KernelIdeal := trivial

/-- From memories agreeing on the arguments both idealized programs end with the scores and the confidences of the
    specification at those arguments: equal results, element by element. -/
theorem algebraic : Cert.algebraic_KernelIdeal_ReferenceIdeal := by
  intro m g m' g' _ hagree
  refine ⟨fun c => predG (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => cfdG (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.HandValue.run m g, ?_⟩
  exact (θ_run Cert.ReferenceIdeal.defs _ _).mono
    (fun _ h c => ⟨by rw [(h c).1, (hagree c).1, (hagree c).2.1],
      by rw [(h c).2.1, (hagree c).1, (hagree c).2.2.1, (hagree c).2.2.2], (h c).2.2⟩)
    (Cert.OutlierHead.Ref.run m' g')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
